-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel

variable [Facts]

def fn {F : FTy → Type} [FloatOps F] (main_arg0 : FVec F S4096x64x256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  main_v3
-- ==== Kernel.lean ====
abbrev S4096x64x256 : Shape := ⟨3, ![4096, 64, 256]⟩
abbrev S2016 : Shape := ⟨1, ![2016]⟩
abbrev S4096x64x64 : Shape := ⟨3, ![4096, 64, 64]⟩
abbrev S64x64x256 : Shape := ⟨3, ![64, 64, 256]⟩
abbrev S64x64x64 : Shape := ⟨3, ![64, 64, 64]⟩
abbrev S16x4x64x256 : Shape := ⟨4, ![16, 4, 64, 256]⟩
abbrev S16x256x256 : Shape := ⟨3, ![16, 256, 256]⟩
abbrev S16x64x64 : Shape := ⟨3, ![16, 64, 64]⟩
abbrev S16x1x64x64 : Shape := ⟨4, ![16, 1, 64, 64]⟩
abbrev S16x4x64x64 : Shape := ⟨4, ![16, 4, 64, 64]⟩
abbrev S_ : Shape := ⟨0, ![]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 22
  | .vmem => 4
  | .smem => 0
  | _ => 0

abbrev bufTy : (tb : Table) → Fin (tcTables nBuf tb) → BufTy
  | .hbm, ⟨0, _⟩ => ⟨S4096x64x256, .f32⟩
  | .hbm, ⟨1, _⟩ => ⟨S2016, .i32⟩
  | .hbm, ⟨2, _⟩ => ⟨S2016, .i32⟩
  | .hbm, ⟨3, _⟩ => ⟨S4096x64x64, .f32⟩
  | .hbm, ⟨4, _⟩ => ⟨S_, .i32⟩
  | .hbm, ⟨5, _⟩ => ⟨S2016, .i32⟩
  | .hbm, ⟨6, _⟩ => ⟨S2016, .i1⟩
  | .hbm, ⟨7, _⟩ => ⟨S_, .i32⟩
  | .hbm, ⟨8, _⟩ => ⟨S2016, .i32⟩
  | .hbm, ⟨9, _⟩ => ⟨S2016, .i32⟩
  | .hbm, ⟨10, _⟩ => ⟨S2016, .i32⟩
  | .hbm, ⟨11, _⟩ => ⟨S_, .i32⟩
  | .hbm, ⟨12, _⟩ => ⟨S2016, .i32⟩
  | .hbm, ⟨13, _⟩ => ⟨S2016, .i1⟩
  | .hbm, ⟨14, _⟩ => ⟨S_, .i32⟩
  | .hbm, ⟨15, _⟩ => ⟨S2016, .i32⟩
  | .hbm, ⟨16, _⟩ => ⟨S2016, .i32⟩
  | .hbm, ⟨17, _⟩ => ⟨S2016, .i32⟩
  | .hbm, ⟨18, _⟩ => ⟨S2016x1, .i32⟩
  | .hbm, ⟨19, _⟩ => ⟨S2016x1, .i32⟩
  | .hbm, ⟨20, _⟩ => ⟨S2016x2, .i32⟩
  | .hbm, ⟨21, _⟩ => ⟨S4096x2016, .f32⟩
  | .local _ .vmem, ⟨0, _⟩ => ⟨S64x64x256, .f32⟩
  | .local _ .vmem, ⟨1, _⟩ => ⟨S64x64x256, .f32⟩
  | .local _ .vmem, ⟨2, _⟩ => ⟨S64x64x64, .f32⟩
  | .local _ .vmem, ⟨3, _⟩ => ⟨S64x64x64, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_c_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_c_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x64x256_S64x64x256_0_0_0 : ∀ a, (![0, 0, 0] : Fin 3 → Nat) a + S64x64x256.size a ≤ S64x64x256.size a
  h_S64x64x256 : 0 < S64x64x256.numel
  bitsLt_bf16_f32 : FTy.bits .bf16 < FTy.bits .f32
  shapeCasts_S64x64x256_S16x4x64x256 : S64x64x256.ShapeCasts S16x4x64x256
  shapeCasts_S16x4x64x256_S16x256x256 : S16x4x64x256.ShapeCasts S16x256x256
  slices_S16x256x256_o0_0_0_S16x64x64 : S16x256x256.Slices ![0, 0, 0] S16x64x64
  slices_S16x256x256_o0_64_64_S16x64x64 : S16x256x256.Slices ![0, 64, 64] S16x64x64
  slices_S16x256x256_o0_128_128_S16x64x64 : S16x256x256.Slices ![0, 128, 128] S16x64x64
  slices_S16x256x256_o0_192_192_S16x64x64 : S16x256x256.Slices ![0, 192, 192] S16x64x64
  shapeCasts_S16x64x64_S16x1x64x64 : S16x64x64.ShapeCasts S16x1x64x64
  concatenates_S16x1x64x64_S16x1x64x64_S16x1x64x64_S16x1x64x64_S16x4x64x64_d1 : Shape.Concatenates [S16x1x64x64, S16x1x64x64, S16x1x64x64, S16x1x64x64] S16x4x64x64 1
  shapeCasts_S16x4x64x64_S64x64x64 : S16x4x64x64.ShapeCasts S64x64x64
  inb_S64x64x64_S64x64x64_0_0_0 : ∀ a, (![0, 0, 0] : Fin 3 → Nat) a + S64x64x64.size a ≤ S64x64x64.size a
  h_S64x64x64 : 0 < S64x64x64.numel
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S16x256x256_S16x256x256_S16x256x256_2_2_1_1_0_0_wf : DotDims.WF S16x256x256 S16x256x256 S16x256x256 [2] [2] [1] [1] [0] [0]
  gather_S4096x64x64_S2016x2_S4096x2016_0_12_n_n_12_1_409611_wf : GatherDims.WF S4096x64x64 S2016x2 S4096x2016 [0] [1, 2] [] [1, 2] [] 1 ![4096, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S4096x64x256.size a
  hwx0_0 : ∀ i : grid0.Coords, EltTy.bits .f32 = 32 ∨ (Rect.block (s := S4096x64x256) S64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S4096x64x64.size a
  hwx0_1 : ∀ i : grid0.Coords, EltTy.bits .f32 = 32 ∨ (Rect.block (s := S4096x64x64) S64x64x64.size (cc0_transform_1 i) (hinb0_1 i)).WholeWords (EltTy.packing .f32)

variable [Facts₀]

def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S4096x64x64 : Shape := ⟨3, ![4096, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S4096x2016 : Shape := ⟨2, ![4096, 2016]⟩

abbrev nBuf : Space → Nat
  | .hbm => 137
  | .vmem => 0
  | .smem => 0
  | _ => 0

abbrev hbmTy0_0 (i : Nat) : BufTy := match i % 128 with
  | 0 => ⟨S4096x64x256, .f32⟩
  | 1 => ⟨S4096x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S4096x64x256, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S4096x2016, .f32⟩
  | _ => ⟨S4096x64x256, .f32⟩

abbrev hbmTy (i : Nat) : BufTy := match i / 128 with
  | 0 => hbmTy0_0 i
  | 1 => hbmTy0_1 i
  | _ => ⟨S4096x64x256, .f32⟩

abbrev bufTy : (tb : Table) → Fin (tcTables nBuf tb) → BufTy
  | .hbm, ⟨i, _⟩ => hbmTy i
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S4096x64x256_S4096x64x256_S4096x64x64_2_2_1_1_0_0_wf : DotDims.WF S4096x64x256 S4096x64x256 S4096x64x64 [2] [2] [1] [1] [0] [0]
  scatter_S2016_S4096x1_S4096_n_0_0_1_wf : ScatterDims.WF S2016 S4096x1 S4096 [] [0] [0] 1
  gather_S4096x64x64_S2016x2_S4096x2016_0_12_n_n_12_1_409611_wf : GatherDims.WF S4096x64x64 S2016x2 S4096x2016 [0] [1, 2] [] [1, 2] [] 1 ![4096, 1, 1]

variable [Facts₀]

def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

class Facts : Prop extends Facts₀ where

variable [Facts]
-- ==== Proof.LibGroupedLayout.lean ====
/-
  Layout operations of "grouped" block products, read at an index.

  A batch of `n = a * b` matrices is handled `b` at a time: the leading axis is split `[n, c, d] → [a, b, c, d]`, the
  two middle axes are merged `[a, b, c, d] → [a, b * c, d]` (so `b` consecutive matrices sit one under the other in one
  operand), and at the end the pieces are put back: a unit axis is inserted `[a, c, d] → [a, 1, c, d]`, four such
  pieces are concatenated along axis 1, and the leading axes are merged `[a, b, c, d] → [n, c, d]`. Every one of these
  moves an entry without changing it; the lemmas here say where each reads, at indices built from coordinates
  (`ix3`, `ix4`). The last lemma reads a batched product `[B, M, K] · [B, N, K]ᵀ` (batch axis 0, both operands
  contracted on their last axis) into the zero accumulator at an entry `(g, p, q)` as the sum over the contracted
  coordinate.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibGroupedLayout

open Idealize.ShloMosaic Idealize.ShloMosaic.ValueIdx

variable {α : Type}

/-- Splitting the leading axis, `[n, c, d] → [a, b, c, d]`: the entry `(g, k, i, j)` is the source's entry
    `(r, i, j)` with `r = g * b + k`. -/
theorem shapeCast_splitLead_apply {n a b c d : ℕ} (x : (⟨3, ![n, c, d]⟩ : Shape).Idx → α)
    (h : (⟨3, ![n, c, d]⟩ : Shape).ShapeCasts ⟨4, ![a, b, c, d]⟩)
    (r : Fin n) (g : Fin a) (k : Fin b) (i : Fin c) (j : Fin d) (hr : r.val = g.val * b + k.val) :
    shapeCast ⟨4, ![a, b, c, d]⟩ x h (ix4 g k i j) = x (ix3 r i j) := by
  refine shapeCast_apply x h (ix4 g k i j) (ix3 r i j) ?_
  rw [Shape.rowMajor_val_three, Shape.rowMajor_val_four]
  show (r.val * c + i.val) * d + j.val = ((g.val * b + k.val) * c + i.val) * d + j.val
  rw [hr]

/-- Merging the two leading axes, `[a, b, c, d] → [n, c, d]`: the entry `(r, i, j)` with `r = g * b + k` is the
    source's entry `(g, k, i, j)`. -/
theorem shapeCast_mergeLead_apply {n a b c d : ℕ} (x : (⟨4, ![a, b, c, d]⟩ : Shape).Idx → α)
    (h : (⟨4, ![a, b, c, d]⟩ : Shape).ShapeCasts ⟨3, ![n, c, d]⟩)
    (r : Fin n) (g : Fin a) (k : Fin b) (i : Fin c) (j : Fin d) (hr : r.val = g.val * b + k.val) :
    shapeCast ⟨3, ![n, c, d]⟩ x h (ix3 r i j) = x (ix4 g k i j) := by
  refine shapeCast_apply x h (ix3 r i j) (ix4 g k i j) ?_
  rw [Shape.rowMajor_val_three, Shape.rowMajor_val_four]
  show ((g.val * b + k.val) * c + i.val) * d + j.val = (r.val * c + i.val) * d + j.val
  rw [hr]

/-- Merging the two middle axes, `[a, b, c, d] → [a, m, d]` with `m = b * c`: the entry `(g, p, j)` with
    `p = k * c + i` is the source's entry `(g, k, i, j)`. -/
theorem shapeCast_mergeMid_apply {a b c d m : ℕ} (x : (⟨4, ![a, b, c, d]⟩ : Shape).Idx → α)
    (h : (⟨4, ![a, b, c, d]⟩ : Shape).ShapeCasts ⟨3, ![a, m, d]⟩) (hm : m = b * c)
    (g : Fin a) (k : Fin b) (i : Fin c) (p : Fin m) (j : Fin d) (hp : p.val = k.val * c + i.val) :
    shapeCast ⟨3, ![a, m, d]⟩ x h (ix3 g p j) = x (ix4 g k i j) := by
  refine shapeCast_apply x h (ix3 g p j) (ix4 g k i j) ?_
  rw [Shape.rowMajor_val_three, Shape.rowMajor_val_four]
  show ((g.val * b + k.val) * c + i.val) * d + j.val = (g.val * m + p.val) * d + j.val
  rw [hp, hm]
  ring

/-- Inserting a unit axis after the leading one, `[a, c, d] → [a, 1, c, d]`: the entry `(g, z, i, j)` is the
    source's entry `(g, i, j)`. -/
theorem shapeCast_unitAxis1_apply {a c d : ℕ} (x : (⟨3, ![a, c, d]⟩ : Shape).Idx → α)
    (h : (⟨3, ![a, c, d]⟩ : Shape).ShapeCasts ⟨4, ![a, 1, c, d]⟩)
    (g : Fin a) (z : Fin 1) (i : Fin c) (j : Fin d) :
    shapeCast ⟨4, ![a, 1, c, d]⟩ x h (ix4 g z i j) = x (ix3 g i j) := by
  refine shapeCast_apply x h (ix4 g z i j) (ix3 g i j) ?_
  rw [Shape.rowMajor_val_three, Shape.rowMajor_val_four]
  show (g.val * c + i.val) * d + j.val = ((g.val * 1 + z.val) * c + i.val) * d + j.val
  have hz : z.val = 0 := by have := z.isLt; omega
  rw [hz, Nat.mul_one, Nat.add_zero]

/-- A slice of a rank-3 array with unit strides, read at `(g, i, j)`: the source at the coordinates shifted by
    the offsets. -/
theorem extractStridedSlice_ix3_apply {a m n a' c d : ℕ} (off : Fin 3 → ℕ) (x : (⟨3, ![a, m, n]⟩ : Shape).Idx → α)
    (h : (⟨3, ![a, m, n]⟩ : Shape).Slices off ⟨3, ![a', c, d]⟩)
    (g : Fin a') (i : Fin c) (j : Fin d) (g' : Fin a) (p : Fin m) (q : Fin n)
    (hg : g'.val = off 0 + g.val) (hp : p.val = off 1 + i.val) (hq : q.val = off 2 + j.val) :
    extractStridedSlice ⟨3, ![a', c, d]⟩ off x h (ix3 g i j) = x (ix3 g' p q) :=
  extractStridedSlice_apply off x h (ix3 g i j) (ix3 g' p q) fun e =>
    match e with
    | ⟨0, _⟩ => hg
    | ⟨1, _⟩ => hp
    | ⟨2, _⟩ => hq

/-- Four pieces `[a, 1, c, d]` concatenated along axis 1 into `[a, 4, c, d]`: the entry `(g, k, i, j)` is piece
    `k`'s entry `(g, 0, i, j)`. -/
theorem concatenate4_axis1_apply {a c d : ℕ} (x0 x1 x2 x3 : (⟨4, ![a, 1, c, d]⟩ : Shape).Idx → α)
    (h : Shape.Concatenates [(⟨4, ![a, 1, c, d]⟩ : Shape), ⟨4, ![a, 1, c, d]⟩, ⟨4, ![a, 1, c, d]⟩, ⟨4, ![a, 1, c, d]⟩]
      ⟨4, ![a, 4, c, d]⟩ 1)
    (g : Fin a) (k : Fin 4) (i : Fin c) (j : Fin d) :
    concatenate ⟨4, ![a, 4, c, d]⟩ 1 [⟨⟨4, ![a, 1, c, d]⟩, x0⟩, ⟨⟨4, ![a, 1, c, d]⟩, x1⟩, ⟨⟨4, ![a, 1, c, d]⟩, x2⟩,
        ⟨⟨4, ![a, 1, c, d]⟩, x3⟩] h (ix4 g k i j)
      = (![x0, x1, x2, x3] k) (ix4 g 0 i j) := by
  have hi : ∀ b : Fin 4, b.cast rfl ≠ (1 : Fin 4) →
      ((ix4 g (0 : Fin 1) i j : (⟨4, ![a, 1, c, d]⟩ : Shape).Idx) b).val
        = ((ix4 g k i j : (⟨4, ![a, 4, c, d]⟩ : Shape).Idx) (b.cast rfl)).val := fun b hb =>
    match b, hb with
    | ⟨0, _⟩, _ => rfl
    | ⟨1, _⟩, hb => absurd rfl hb
    | ⟨2, _⟩, _ => rfl
    | ⟨3, _⟩, _ => rfl
  match k with
  | ⟨0, _⟩ =>
    exact concatenate_apply_piece (t := ⟨4, ![a, 4, c, d]⟩) 1
      [⟨⟨4, ![a, 1, c, d]⟩, x0⟩, ⟨⟨4, ![a, 1, c, d]⟩, x1⟩, ⟨⟨4, ![a, 1, c, d]⟩, x2⟩, ⟨⟨4, ![a, 1, c, d]⟩, x3⟩] h _
      0 (by show (0 : ℕ) < 4; omega) ⟨4, ![a, 1, c, d]⟩ x0 rfl rfl 0 rfl (ix4 g 0 i j) hi rfl
  | ⟨1, _⟩ =>
    exact concatenate_apply_piece (t := ⟨4, ![a, 4, c, d]⟩) 1
      [⟨⟨4, ![a, 1, c, d]⟩, x0⟩, ⟨⟨4, ![a, 1, c, d]⟩, x1⟩, ⟨⟨4, ![a, 1, c, d]⟩, x2⟩, ⟨⟨4, ![a, 1, c, d]⟩, x3⟩] h _
      1 (by show (1 : ℕ) < 4; omega) ⟨4, ![a, 1, c, d]⟩ x1 rfl rfl 1 rfl (ix4 g 0 i j) hi rfl
  | ⟨2, _⟩ =>
    exact concatenate_apply_piece (t := ⟨4, ![a, 4, c, d]⟩) 1
      [⟨⟨4, ![a, 1, c, d]⟩, x0⟩, ⟨⟨4, ![a, 1, c, d]⟩, x1⟩, ⟨⟨4, ![a, 1, c, d]⟩, x2⟩, ⟨⟨4, ![a, 1, c, d]⟩, x3⟩] h _
      2 (by show (2 : ℕ) < 4; omega) ⟨4, ![a, 1, c, d]⟩ x2 rfl rfl 2 rfl (ix4 g 0 i j) hi rfl
  | ⟨3, _⟩ =>
    exact concatenate_apply_piece (t := ⟨4, ![a, 4, c, d]⟩) 1
      [⟨⟨4, ![a, 1, c, d]⟩, x0⟩, ⟨⟨4, ![a, 1, c, d]⟩, x1⟩, ⟨⟨4, ![a, 1, c, d]⟩, x2⟩, ⟨⟨4, ![a, 1, c, d]⟩, x3⟩] h _
      3 (by show (3 : ℕ) < 4; omega) ⟨4, ![a, 1, c, d]⟩ x3 rfl rfl 3 rfl (ix4 g 0 i j) hi rfl

/-! ## The batched product `[B, M, K] · [B, N, K]ᵀ` -/

section Batched
variable {B M N K : ℕ}

/-- The dimension numbers of `[B, M, K] · [B, N, K]ᵀ`: batch axis 0 of both operands, both contracted on their
    last axis. A record is determined by its six lists, so a printed one with these lists is equal to it by `rfl`. -/
abbrev batchedTransposedRhs
    (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ where
  lhsContracting := [2]
  rhsContracting := [2]
  lhsNonContracting := [1]
  rhsNonContracting := [1]
  lhsBatch := [0]
  rhsBatch := [0]
  wf := wf

variable (wf : DotDims.WF (⟨3, ![B, M, K]⟩ : Shape) ⟨3, ![B, N, K]⟩ ⟨3, ![B, M, N]⟩ [2] [2] [1] [1] [0] [0])

/-- The left operand's index at output `(g, p, q)` and contraction coordinate `k` is `(g, p, k)`. -/
theorem batchedTransposedRhs_lhsIdx (g : Fin B) (p : Fin M) (q : Fin N) (k : Fin K) :
    (batchedTransposedRhs wf).lhsIdx (ix3 g p q) ((contrEquiv1 (batchedTransposedRhs wf) K rfl rfl).symm k) = ix3 g p k :=
  funext fun e => Fin.ext (by
    match e with
    | ⟨0, _⟩ => rfl
    | ⟨1, _⟩ => rfl
    | ⟨2, _⟩ =>
      exact ((batchedTransposedRhs wf).lhsIdx_val_of_single rfl (ix3 g p q) _).trans
        (contrEquiv1_symm_val (batchedTransposedRhs wf) K rfl rfl k))

/-- The right operand's index there is `(g, q, k)`. -/
theorem batchedTransposedRhs_rhsIdx (g : Fin B) (p : Fin M) (q : Fin N) (k : Fin K) :
    (batchedTransposedRhs wf).rhsIdx (ix3 g p q) ((contrEquiv1 (batchedTransposedRhs wf) K rfl rfl).symm k) = ix3 g q k :=
  funext fun e => Fin.ext (by
    match e with
    | ⟨0, _⟩ => rfl
    | ⟨1, _⟩ => rfl
    | ⟨2, _⟩ =>
      exact ((batchedTransposedRhs wf).rhsIdx_val_of_single rfl (ix3 g p q) _).trans
        (contrEquiv1_symm_val (batchedTransposedRhs wf) K rfl rfl k))

/-- `[B, M, K] · [B, N, K]ᵀ` into the zero accumulator, at `(g, p, q)`, is `∑ k, l (g, p, k) · r (g, q, k)`. -/
theorem matmul_batchedTransposedRhs_zero_apply {φ₁ φ₂ : FTy}
    (D : DotDims (⟨3, ![B, M, K]⟩ : Shape) ⟨3, ![B, N, K]⟩ ⟨3, ![B, M, N]⟩) (hD : D = batchedTransposedRhs wf)
    (prec : Option ContractPrecision) (l : FVec Ideal ⟨3, ![B, M, K]⟩ φ₁) (r : FVec Ideal ⟨3, ![B, N, K]⟩ φ₂)
    (g : Fin B) (p : Fin M) (q : Fin N) :
    FloatOps.matmul D prec l r (constant ⟨3, ![B, M, N]⟩ .f32 0x00000000#32) (ix3 g p q)
      = ∑ k : Fin K, l (ix3 g p k) * r (ix3 g q k) := by
  subst hD
  rw [Ideal.matmul_constant_zero_apply, ← Equiv.sum_comp (contrEquiv1 (batchedTransposedRhs wf) K rfl rfl).symm]
  refine Finset.sum_congr rfl fun k _ => ?_
  rw [batchedTransposedRhs_lhsIdx, batchedTransposedRhs_rhsIdx]

end Batched

end Cert.LibGroupedLayout

end
-- ==== Proof.Payload.lean ====
/-
  The kernel body's arithmetic, read at one entry, with exact real arithmetic.

  The body loads a block `x` of 64 batch rows, each a 64 × 256 matrix of fields (64 fields, 256 embedding
  coordinates). It packs four consecutive batch rows into one 256-row operand (`[64, 64, 256] → [16, 4, 64, 256] →
  [16, 256, 256]`), multiplies each packed operand by its own transpose (a batched product contracting the last
  axis), cuts the four diagonal 64 × 64 blocks out of each 256 × 256 product, and puts them back in batch order
  (`[16, 64, 64] → [16, 1, 64, 64]`, four of them concatenated to `[16, 4, 64, 64]`, then `[64, 64, 64]`). With the
  batch row written `r = 4 g + k`, row `64 k + i` of packed operand `g` is field `i` of batch row `r`, so the
  entry `(r, i, j)` of the result is the inner product of fields `i` and `j` of batch row `r`:
  `∑ d, x (r, i, d) · x (r, j, d)`.
-/
import proofs.«134727_j32238024524281_2_alg».proof.Proof.Gen.KernelIdeal.Skeleton
import proofs.«134727_j32238024524281_2_alg».proof.Proof.LibGroupedLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gram.Payload

open Idealize.ShloMosaic Idealize.ShloMosaic.ValueIdx Cert.KernelIdeal Cert.LibGroupedLayout

variable [Cert.KernelIdeal.Facts]

open Cert.KernelIdeal.Facts₀ Cert.KernelIdeal.Facts

/-- The packed operand at `(g, 64 k + i, d)` is the loaded block at `(4 g + k, i, d)`: the narrowing to bf16 changes
    nothing in exact arithmetic, and the two reshapes only move entries. -/
theorem operand_apply (x0 : Vec Ideal S64x64x256 .f32) (r : Fin 64) (g : Fin 16) (k : Fin 4) (i : Fin 64)
    (p : Fin 256) (d : Fin 256) (hr : r.val = g.val * 4 + k.val) (hp : p.val = k.val * 64 + i.val) :
    shapeCast S16x256x256
        (shapeCast S16x4x64x256 (truncf (F := Ideal) .bf16 x0 bitsLt_bf16_f32) shapeCasts_S64x64x256_S16x4x64x256)
        shapeCasts_S16x4x64x256_S16x256x256 (ix3 g p d)
      = x0 (ix3 r i d) :=
  (shapeCast_mergeMid_apply _ _ rfl g k i p d hp).trans
    ((shapeCast_splitLead_apply _ _ r g k i d hr).trans rfl)

/-- One block of the products given a unit axis: at `(g, 0, i, j)` it is the product at the coordinates shifted by
    the block's offsets. -/
theorem block_apply {α : Type} (off : Fin 3 → ℕ) (v : S16x256x256.Idx → α) (hs : S16x256x256.Slices off S16x64x64)
    (g : Fin 16) (i j : Fin 64) (p q : Fin 256) (h0 : off 0 = 0) (hp : p.val = off 1 + i.val) (hq : q.val = off 2 + j.val) :
    shapeCast S16x1x64x64 (extractStridedSlice S16x64x64 off v hs) shapeCasts_S16x64x64_S16x1x64x64 (ix4 g 0 i j)
      = v (ix3 g p q) :=
  (shapeCast_unitAxis1_apply _ _ g 0 i j).trans
    (extractStridedSlice_ix3_apply off v hs g i j g p q (by rw [h0, Nat.zero_add]) hp hq)

/-- The four diagonal blocks of the products, each given a unit axis: block `k` at `(g, 0, i, j)` is the product
    at `(g, 64 k + i, 64 k + j)`. -/
theorem diagBlock_apply {α : Type} (v : S16x256x256.Idx → α) (g : Fin 16) (k : Fin 4) (i j : Fin 64) (p q : Fin 256)
    (hp : p.val = k.val * 64 + i.val) (hq : q.val = k.val * 64 + j.val) :
    (![shapeCast S16x1x64x64 (extractStridedSlice S16x64x64 ![0, 0, 0] v slices_S16x256x256_o0_0_0_S16x64x64)
          shapeCasts_S16x64x64_S16x1x64x64,
        shapeCast S16x1x64x64 (extractStridedSlice S16x64x64 ![0, 64, 64] v slices_S16x256x256_o0_64_64_S16x64x64)
          shapeCasts_S16x64x64_S16x1x64x64,
        shapeCast S16x1x64x64 (extractStridedSlice S16x64x64 ![0, 128, 128] v slices_S16x256x256_o0_128_128_S16x64x64)
          shapeCasts_S16x64x64_S16x1x64x64,
        shapeCast S16x1x64x64 (extractStridedSlice S16x64x64 ![0, 192, 192] v slices_S16x256x256_o0_192_192_S16x64x64)
          shapeCasts_S16x64x64_S16x1x64x64] k) (ix4 g 0 i j)
      = v (ix3 g p q) := by
  match k, hp, hq with
  | ⟨0, _⟩, hp, hq =>
    show shapeCast S16x1x64x64 (extractStridedSlice S16x64x64 ![0, 0, 0] v slices_S16x256x256_o0_0_0_S16x64x64)
        shapeCasts_S16x64x64_S16x1x64x64 (ix4 g 0 i j) = v (ix3 g p q)
    exact block_apply ![0, 0, 0] v _ g i j p q rfl
      (by show p.val = 0 + i.val; have : p.val = 0 * 64 + i.val := hp; omega)
      (by show q.val = 0 + j.val; have : q.val = 0 * 64 + j.val := hq; omega)
  | ⟨1, _⟩, hp, hq =>
    show shapeCast S16x1x64x64 (extractStridedSlice S16x64x64 ![0, 64, 64] v slices_S16x256x256_o0_64_64_S16x64x64)
        shapeCasts_S16x64x64_S16x1x64x64 (ix4 g 0 i j) = v (ix3 g p q)
    exact block_apply ![0, 64, 64] v _ g i j p q rfl
      (by show p.val = 64 + i.val; have : p.val = 1 * 64 + i.val := hp; omega)
      (by show q.val = 64 + j.val; have : q.val = 1 * 64 + j.val := hq; omega)
  | ⟨2, _⟩, hp, hq =>
    show shapeCast S16x1x64x64 (extractStridedSlice S16x64x64 ![0, 128, 128] v slices_S16x256x256_o0_128_128_S16x64x64)
        shapeCasts_S16x64x64_S16x1x64x64 (ix4 g 0 i j) = v (ix3 g p q)
    exact block_apply ![0, 128, 128] v _ g i j p q rfl
      (by show p.val = 128 + i.val; have : p.val = 2 * 64 + i.val := hp; omega)
      (by show q.val = 128 + j.val; have : q.val = 2 * 64 + j.val := hq; omega)
  | ⟨3, _⟩, hp, hq =>
    show shapeCast S16x1x64x64 (extractStridedSlice S16x64x64 ![0, 192, 192] v slices_S16x256x256_o0_192_192_S16x64x64)
        shapeCasts_S16x64x64_S16x1x64x64 (ix4 g 0 i j) = v (ix3 g p q)
    exact block_apply ![0, 192, 192] v _ g i j p q rfl
      (by show p.val = 192 + i.val; have : p.val = 3 * 64 + i.val := hp; omega)
      (by show q.val = 192 + j.val; have : q.val = 3 * 64 + j.val := hq; omega)

/-- **The body's value at `(r, i, j)`**: the inner product of fields `i` and `j` of batch row `r`. -/
theorem pay_apply (x0 : Vec Ideal S64x64x256 .f32) (r i j : Fin 64) :
    Gen.k0_pay1 (F := Ideal) x0 (ix3 r i j) = ∑ d : Fin 256, x0 (ix3 r i d) * x0 (ix3 r j d) := by
  -- the batch row is `r = 4 g + k`; rows `p = 64 k + i` and `q = 64 k + j` of the packed operand `g`
  have hr4 : r.val < 64 := r.isLt
  have hi4 : i.val < 64 := i.isLt
  have hj4 : j.val < 64 := j.isLt
  obtain ⟨g, k, hr⟩ : ∃ (g : Fin 16) (k : Fin 4), r.val = g.val * 4 + k.val :=
    ⟨⟨r.val / 4, by omega⟩, ⟨r.val % 4, by omega⟩, by show r.val = r.val / 4 * 4 + r.val % 4; omega⟩
  have hk4 : k.val < 4 := k.isLt
  obtain ⟨p, hp⟩ : ∃ p : Fin 256, p.val = k.val * 64 + i.val := ⟨⟨k.val * 64 + i.val, by omega⟩, rfl⟩
  obtain ⟨q, hq⟩ : ∃ q : Fin 256, q.val = k.val * 64 + j.val := ⟨⟨k.val * 64 + j.val, by omega⟩, rfl⟩
  unfold Gen.k0_pay1
  -- the last reshape merges (g, k) back into r
  refine (shapeCast_mergeLead_apply _ _ r g k i j hr).trans ?_
  -- the concatenation picks block k, the unit axis goes, the slice shifts to the diagonal block
  refine (concatenate4_axis1_apply _ _ _ _ _ g k i j).trans ?_
  refine (diagBlock_apply _ g k i j p q hp hq).trans ?_
  -- the batched product into zero is the sum over the contracted coordinate
  refine (matmul_batchedTransposedRhs_zero_apply _ dot_S16x256x256_S16x256x256_S16x256x256_2_2_1_1_0_0 rfl none _ _ g p q).trans ?_
  -- both factors are entries of the loaded block
  exact Finset.sum_congr rfl fun d _ =>
    congrArg₂ (· * ·) (operand_apply x0 r g k i p d hr hp) (operand_apply x0 r g k j q d hr hq)

end Cert.Gram.Payload

end
-- ==== Proof.Spec.lean ====
/-
  The common value of the two programs before the final gather: the batched Gram matrix.  For an
  array `x` of shape [4096, 64, 256] (batch, field, embedding coordinate), entry `(b, i, j)` is the
  inner product of rows `i` and `j` of batch `b`, a sum of 256 products on the extended reals.
-/
import Idealize.ShloMosaic.PureOps.Ideal
import Idealize.ShloMosaic.Lib.ValueIdx

noncomputable section

namespace Cert.Gram

open Idealize.ShloMosaic Idealize.ShloMosaic.ValueIdx

/-- The inner product of rows `i` and `j` of batch `b`. -/
def gramAt (x : (⟨3, ![4096, 64, 256]⟩ : Shape).Idx → EReal) (b : Fin 4096) (i j : Fin 64) : EReal :=
  ∑ d : Fin 256, x (ix3 b i d) * x (ix3 b j d)

/-- The whole Gram array, [4096, 64, 64]. -/
def gramArr (x : (⟨3, ![4096, 64, 256]⟩ : Shape).Idx → EReal) : (⟨3, ![4096, 64, 64]⟩ : Shape).Idx → EReal :=
  fun j => gramAt x (j 0) (j 1) (j 2)

theorem gramArr_apply (x : (⟨3, ![4096, 64, 256]⟩ : Shape).Idx → EReal) (b : Fin 4096) (i j : Fin 64) :
    gramArr x (ix3 b i j) = gramAt x b i j := rfl

end Cert.Gram

end
-- ==== Proof.KernelValue.lean ====
/-
  The idealized kernel program's run with its result named.

  The one region runs over 64 grid points; point t loads rows 64·t … 64·t+63 of the argument
  [4096, 64, 256] (all 64 fields, all 256 coordinates) and writes back rows 64·t … 64·t+63 of the
  Gram array [4096, 64, 64].  Given that the body's payload at (r, i, j) is the inner product of
  rows i and j of batch row r of its block, the block written at t is block t of the whole Gram
  array of the argument; the 64 blocks tile the output array, so after the last point it holds the
  Gram array.  The host operations after the region wrap the two index tables into range, set them
  side by side as the columns of a [2016, 2] array and gather the Gram array at those pairs; they
  are carried as one opaque composition.
-/
import proofs.«134727_j32238024524281_2_alg».proof.Proof.Gen.KernelIdeal.Frame
import proofs.«134727_j32238024524281_2_alg».proof.Proof.Spec
import Idealize.ShloMosaic.Lib.Pipeline.Value
import Idealize.ShloMosaic.Lib.StableHlo.Run

set_option maxRecDepth 16384

noncomputable section

namespace Cert.KernelIdeal.KValue

open Idealize.ShloMosaic Idealize.ShloMosaic.ValueIdx Idealize.ShloMosaic.TcCoe Idealize.SL.Sem
open Cert.KernelIdeal Cert.KernelIdeal.Gen
open Idealize.ShloMosaic.Pipeline (Dat)

/-- An index table wrapped into range: a negative entry is moved up by 64. -/
def wrap64 (v : IVec S2016 32) : IVec S2016 32 :=
  select (cmpi .slt v (broadcastInDim S2016 ![] bcast_S_S2016 (constantI S_ 32 0#32)))
    (addi v (broadcastInDim S2016 ![] bcast_S_S2016 (constantI S_ 32 64#32))) v

/-- The two wrapped tables as the two columns of a [2016, 2] array of index pairs. -/
def idxTail (a b : IVec S2016 32) : IVec S2016x2 32 :=
  concatenate S2016x2 1
    [⟨S2016x1, broadcastInDim S2016x1 ![0] bcast_S2016_S2016x1_0 (wrap64 a)⟩,
     ⟨S2016x1, broadcastInDim S2016x1 ![0] bcast_S2016_S2016x1_0 (wrap64 b)⟩]
    concatenates_S2016x1_S2016x1_S2016x2_d1

/-- The program's result as a function of its argument: the Gram array gathered at the pairs of the
    two literal tables. -/
def result (x : FVec Ideal S4096x64x256 .f32) : FVec Ideal S4096x2016 .f32 :=
  Host.gather gather_S4096x64x64_S2016x2_S4096x2016_0_12_n_n_12_1_409611 (Cert.Gram.gramArr x)
    (idxTail (fun i => lit0 (S2016.rowMajor i)) (fun i => lit1 (S2016.rowMajor i)))

variable (m : (ℓ : Loc nD τ sig) → Buf (Elt Ideal) ℓ)

/-! ## What a point writes back -/

theorem hz : (![0, 0, 0] : Fin 3 → Nat) = fun _ => 0 := funext fun a => by fin_cases a <;> rfl

/-- The printed index maps, decided over the grid: at point `t` both windows sit at block `t` of the batch
    axis and at block 0 of the other two. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A block of 64 batch rows whose entries are those of `X` from row `64·t` on has, as its payload at
    `(r, i, j)`, the Gram entry of `X` at batch row `64·t + r`. -/
theorem block_entry
    (hpay : ∀ (x0 : Vec Ideal S64x64x256 .f32) (r i j : Fin 64), Gen.k0_pay1 (F := Ideal) x0 (ix3 r i j) = ∑ d : Fin 256, x0 (ix3 r i d) * x0 (ix3 r j d))
    (X : FVec Ideal S4096x64x256 .f32) (x0 : Vec Ideal S64x64x256 .f32) (t : Nat) (ht : t < 64)
    (hx : ∀ (r i : Fin 64) (d : Fin 256), x0 (ix3 r i d) = X (ix3 (⟨t * 64 + r.val, by omega⟩ : Fin 4096) i d)) (r i j : Fin 64) :
    Gen.k0_pay1 (F := Ideal) x0 (ix3 r i j) = Cert.Gram.gramArr X (ix3 (⟨t * 64 + r.val, by omega⟩ : Fin 4096) i j) := by
  rw [hpay, Cert.Gram.gramArr_apply]
  unfold Cert.Gram.gramAt
  exact Finset.sum_congr rfl (fun d _ => by rw [hx, hx])

/-- WHAT POINT `t` WRITES BACK is block `t` of the Gram array of the argument as the region finds it. -/
theorem flushed_eq
    (hpay : ∀ (x0 : Vec Ideal S64x64x256 .f32) (r i j : Fin 64), Gen.k0_pay1 (F := Ideal) x0 (ix3 r i j) = ∑ d : Fin 256, x0 (ix3 r i d) * x0 (ix3 r j d))
    (c : Dev nD) (t : Fin cfg0.N) :
    (dats m 0 c).flushed 1 t = ((cfg0.win 1).blk t).view.read (Elt Ideal) (Cert.Gram.gramArr (V m c main_arg0)) := by
  show (cfg0.win 1).cut (grid0.coords t) ((dats m 0 c).after 1 t) = _
  rw [after0_1]
  unfold out0_1
  rw [View.canon_unit_zero hz]
  simp only [View.ld_unit_zero (S := S64x64x256) hz]
  obtain ⟨e0, e1, e2, e3, e4, e5⟩ := idx_facts t
  have ht : t.val < 64 := by have h := t.isLt; have hN : cfg0.N = 64 := N_0; omega
  funext y
  obtain ⟨r, i, j, rfl⟩ : ∃ (r i j : Fin 64), y = ix3 r i j := ⟨y 0, y 1, y 2, eq_ix3 y⟩
  show Gen.k0_pay1 (iblk m c 0 t) (ix3 r i j) = Cert.Gram.gramArr (V m c main_arg0) (((cfg0.win 1).blk t).view.emb (ix3 r i j))
  have e : ((cfg0.win 1).blk t).view.emb (ix3 r i j) = ix3 (⟨t.val * 64 + r.val, by omega⟩ : Fin 4096) i j := by
    funext a; apply Fin.ext
    match a with
    | ⟨0, _⟩ => show win0_1.index t (0 : Fin 3) * 64 + 1 * r.val = t.val * 64 + r.val; omega
    | ⟨1, _⟩ => show win0_1.index t (1 : Fin 3) * 64 + 1 * i.val = i.val; omega
    | ⟨2, _⟩ => show win0_1.index t (2 : Fin 3) * 64 + 1 * j.val = j.val; omega
  rw [e]
  refine block_entry hpay (V m c main_arg0) (iblk m c 0 t) t.val ht (fun r i d => ?_) r i j
  show V m c main_arg0 (((cfg0.win 0).blk t).view.emb (ix3 r i d)) = _
  refine congrArg (V m c main_arg0) ?_
  funext a; apply Fin.ext
  match a with
  | ⟨0, _⟩ => show win0_0.index t (0 : Fin 3) * 64 + 1 * r.val = t.val * 64 + r.val; omega
  | ⟨1, _⟩ => show win0_0.index t (1 : Fin 3) * 64 + 1 * i.val = i.val; omega
  | ⟨2, _⟩ => show win0_0.index t (2 : Fin 3) * 256 + 1 * d.val = d.val; omega

/-! ## The blocks tile the output array -/

/-- An index of the output array is in point `t`'s block iff each coordinate is in the block's range on its axis. -/
theorem mem_blk (t : Fin cfg0.N) (i : S4096x64x64.Idx) :
    i ∈ ((cfg0.win 1).blk t).view.set ↔ ∀ a : Fin 3, win0_1.index t a * S64x64x64.size a ≤ (i a).val ∧ (i a).val < win0_1.index t a * S64x64x64.size a + S64x64x64.size a := by
  show i ∈ ((View.whole main_v0).slice (win0_1.rect t)).set ↔ _
  rw [View.set_slice_whole, Rect.mem_set_unit]
  exact Iff.rfl

/-- Every index of the output array lies in the block of the point numbered by its batch row divided by 64. -/
theorem cover (i : S4096x64x64.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  have hi2 : (i 2).val < 64 := (i 2).isLt
  have hN : cfg0.N = 64 := N_0
  have hq : (i 0).val / 64 < cfg0.N := by rw [hN]; omega
  obtain ⟨-, -, -, e3, e4, e5⟩ := idx_facts ⟨(i 0).val / 64, hq⟩
  have e3' : win0_1.index ⟨(i 0).val / 64, hq⟩ (0 : Fin 3) = (i 0).val / 64 := e3
  refine ⟨⟨(i 0).val / 64, hq⟩, flush0_1 _, ?_⟩
  rw [mem_blk]
  intro a
  match a with
  | ⟨0, _⟩ => show win0_1.index ⟨(i 0).val / 64, hq⟩ (0 : Fin 3) * 64 ≤ (i 0).val ∧ (i 0).val < win0_1.index ⟨(i 0).val / 64, hq⟩ (0 : Fin 3) * 64 + 64; omega
  | ⟨1, _⟩ => show win0_1.index ⟨(i 0).val / 64, hq⟩ (1 : Fin 3) * 64 ≤ (i 1).val ∧ (i 1).val < win0_1.index ⟨(i 0).val / 64, hq⟩ (1 : Fin 3) * 64 + 64; omega
  | ⟨2, _⟩ => show win0_1.index ⟨(i 0).val / 64, hq⟩ (2 : Fin 3) * 64 ≤ (i 2).val ∧ (i 2).val < win0_1.index ⟨(i 0).val / 64, hq⟩ (2 : Fin 3) * 64 + 64; omega

/-- THE OUTPUT ARRAY after the last grid point is the Gram array of the argument. -/
theorem final (hpay : ∀ (x0 : Vec Ideal S64x64x256 .f32) (r i j : Fin 64), Gen.k0_pay1 (F := Ideal) x0 (ix3 r i j) = ∑ d : Fin 256, x0 (ix3 r i d) * x0 (ix3 r j d))
    (c : Dev nD) :
    (dats m 0 c).arrAt 1 cfg0.N = Cert.Gram.gramArr (m ((c.tc : Thread nD τ).loc main_arg0)) := by
  rw [← V_main_arg0 m c]
  exact (dats m 0 c).arrAt_eq_of_cover 1 (Cert.Gram.gramArr (V m c main_arg0)) (fun t _ => flushed_eq m hpay c t) cover

/-! ## The host operations after the region -/

/-- The two index tables are written by the host before the region and no window stages them: the region
    leaves them as written. -/
theorem V0_main_c (c : Dev nD) : (V0 m c (Proc.devRef .tc main_c) : IVec S2016 32) = (fun i => lit0 (S2016.rowMajor i)) := by
  dsimp only [Gen.V0]
  simp only [Gen.hostOps0, List.flatten_cons, List.flatten_nil, List.append_nil, List.cons_append, List.nil_append]
  after_results
  rfl

theorem V0_main_c_0 (c : Dev nD) : (V0 m c (Proc.devRef .tc main_c_0) : IVec S2016 32) = (fun i => lit1 (S2016.rowMajor i)) := by
  dsimp only [Gen.V0]
  simp only [Gen.hostOps0, List.flatten_cons, List.flatten_nil, List.append_nil, List.cons_append, List.nil_append]
  after_results
  rfl

/-- The result of the host operations after the region: the gather of the Gram array at the wrapped index pairs. -/
theorem tail_eq (hpay : ∀ (x0 : Vec Ideal S64x64x256 .f32) (r i j : Fin 64), Gen.k0_pay1 (F := Ideal) x0 (ix3 r i j) = ∑ d : Fin 256, x0 (ix3 r i d) * x0 (ix3 r j d))
    (c : Dev nD) :
    Pipeline.afterTail₀ cfgs (dats m) 0 (V0 m) [hostOps1] c main_v14 = result (m ((c.tc : Thread nD τ).loc main_arg0)) := by
  unfold Pipeline.afterTail₀
  show StableHlo.after hostOps1 _ (Proc.devRef .tc main_v14) = _
  after_results
  have hA : Pipeline.withArrays (cfgs 0).spec c (V0 m c) (fun w => (dats m 0 c).arrAt w (cfgs 0).N) (Proc.devRef .tc main_v0)
      = Cert.Gram.gramArr (m ((c.tc : Thread nD τ).loc main_arg0)) :=
    (Pipeline.withArrays_arr spec0 launch0.win.arr_inj c _ _ 1).trans (final m hpay c)
  have hc0 : Pipeline.withArrays (cfgs 0).spec c (V0 m c) (fun w => (dats m 0 c).arrAt w (cfgs 0).N) (Proc.devRef .tc main_c)
      = (fun i => lit0 (S2016.rowMajor i)) :=
    (Pipeline.withArrays_of_ne spec0 c _ _ main_c (by decide)).trans (V0_main_c m c)
  have hc1 : Pipeline.withArrays (cfgs 0).spec c (V0 m c) (fun w => (dats m 0 c).arrAt w (cfgs 0).N) (Proc.devRef .tc main_c_0)
      = (fun i => lit1 (S2016.rowMajor i)) :=
    (Pipeline.withArrays_of_ne spec0 c _ _ main_c_0 (by decide)).trans (V0_main_c_0 m c)
  rw [hA, hc0, hc1]
  rfl

/-! ## The run, read -/

/-- The kernel program's run: it terminates, its result is the Gram array of the argument gathered at the
    wrapped index pairs, and the argument ends unchanged. -/
theorem run (hpay : ∀ (x0 : Vec Ideal S64x64x256 .f32) (r i j : Fin 64), Gen.k0_pay1 (F := Ideal) x0 (ix3 r i j) = ∑ d : Fin 256, x0 (ix3 r i d) * x0 (ix3 r j d))
    (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = result (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v14 (Pipeline.mem_restRefs_of main_v14 rfl (by decide))).trans (tail_eq m hpay c),
      ((h c).1 0).trans (((dats m 0 c).arrAt_in 0 rfl _).trans ((A_eq m c 0).trans (V_main_arg0 m c)))⟩)
    (run_main m ρ)

end Cert.KernelIdeal.KValue

end
-- ==== Proof.Stages.lean ====
/-
  The reference program's host operations as pure terms, stage by stage, at the ideal instance.
  Its strict-upper-triangle positions are computed from a 64×64 mask: the running count of the
  flattened mask, the number of positions at each count (a scatter of ones), the running sum of
  those numbers — the position of each set flag in turn — and that position's row and column by
  floor division and remainder by 64; the result gathers the Gram array at those pairs.
-/
import proofs.«134727_j32238024524281_2_alg».proof.ReferenceIdeal
import Idealize.ShloMosaic.PureOps.Ideal

noncomputable section

namespace Cert.ReferenceIdeal.Stages

open Idealize.ShloMosaic Cert.ReferenceIdeal

variable [Facts]
open Facts₀ Facts

/-- A rank-zero integer constant. -/
abbrev k32 (v : BitVec 32) : IVec S_ 32 := constantI S_ 32 v

/-- Ones strictly above the diagonal of a 64×64 array of ones, zeros elsewhere. -/
def triu : FVec Ideal S64x64 .f32 :=
  select (cmpi .sge (addi (iotaInDim S64x64 32 0) (broadcastInDim S64x64 ![] bcast_S_S64x64 (k32 0#32))) (iotaInDim S64x64 32 1))
    (broadcastInDim S64x64 ![] bcast_S_S64x64 (constant (F := Ideal) S_ .f32 0x00000000#32))
    (broadcastInDim S64x64 ![] bcast_S_S64x64 (constant (F := Ideal) S_ .f32 0x3F800000#32))

/-- The mask: where that array is not zero. -/
def mask : IVec S64x64 1 :=
  cmpf .une triu (broadcastInDim S64x64 ![] bcast_S_S64x64 (constant (F := Ideal) S_ .f32 0x00000000#32))

/-- The mask flattened row-major to 4096 flags, as 32-bit integers. -/
def maskFlat : IVec S4096 32 := extui 32 (shapeCast S4096 mask shapeCasts_S64x64_S4096) natLt_1_32

/-- The zero the running sums start from. -/
def zero0 : IVec S_ 32 := broadcastInDim S_ ![] bcast_S_S_ (k32 0#32)

/-- The running count of flags. -/
def csum : IVec S4096 32 :=
  Host.reduceWindow IntOp.addi ![4096] ![1] ![4095] ![0] maskFlat zero0 reduceWindows_S4096_S4096_w4096s1p4095_0 h_S_

/-- Clipped below at zero. -/
def clipped : IVec S4096 32 := maxsi (broadcastInDim S4096 ![] bcast_S_S4096 (id (k32 0#32))) csum

/-- A negative count would be taken from the end. -/
def wrapped : IVec S4096 32 :=
  select (cmpi .slt clipped (broadcastInDim S4096 ![] bcast_S_S4096 (k32 0#32)))
    (addi clipped (broadcastInDim S4096 ![] bcast_S_S4096 (k32 2016#32))) clipped

/-- How many positions have each count. -/
def counts : IVec S2016 32 :=
  Host.scatter scatter_S2016_S4096x1_S4096_n_0_0_1 IntOp.addi (broadcastInDim S2016 ![] bcast_S_S2016 (k32 0#32))
    (broadcastInDim S4096x1 ![0] bcast_S4096_S4096x1_0 wrapped) (broadcastInDim S4096 ![] bcast_S_S4096 (k32 1#32))

/-- The running sum of those numbers: the flat position of each flag in turn. -/
def flat : IVec S2016 32 :=
  Host.reduceWindow IntOp.addi ![2016] ![1] ![2015] ![0] counts zero0 reduceWindows_S2016_S2016_w2016s1p2015_0 h_S_

/-- Floor division of a vector by a scalar, as the program spells it: the truncating quotient, less one
    where the signs differ and the remainder is not zero. -/
def fdiv (x : IVec S2016 32) (d : IVec S_ 32) : IVec S2016 32 :=
  select
    (andi (cmpi .ne (signi x) (broadcastInDim S2016 ![] bcast_S_S2016 (signi d)))
      (cmpi .ne (Host.remsi x (broadcastInDim S2016 ![] bcast_S_S2016 d)) (broadcastInDim S2016 ![] bcast_S_S2016 (k32 0#32))))
    (subi (Host.divsi x (broadcastInDim S2016 ![] bcast_S_S2016 d)) (broadcastInDim S2016 ![] bcast_S_S2016 (k32 1#32)))
    (Host.divsi x (broadcastInDim S2016 ![] bcast_S_S2016 d))

/-- The divisor the remainder really uses: one in place of zero. -/
def safeDiv (d : IVec S_ 32) : IVec S_ 32 := select (cmpi .eq (id d) (k32 0#32)) (k32 1#32) (id d)

/-- The remainder with the divisor's sign, as the program spells it. -/
def frem (x : IVec S2016 32) (d : IVec S_ 32) : IVec S2016 32 :=
  select
    (andi
      (cmpi .ne (cmpi .slt (Host.remsi x (broadcastInDim S2016 ![] bcast_S_S2016 (safeDiv d))) (broadcastInDim S2016 ![] bcast_S_S2016 (k32 0#32)))
        (broadcastInDim S2016 ![] bcast_S_S2016 (cmpi .slt (safeDiv d) (k32 0#32))))
      (cmpi .ne (Host.remsi x (broadcastInDim S2016 ![] bcast_S_S2016 (safeDiv d))) (broadcastInDim S2016 ![] bcast_S_S2016 (k32 0#32))))
    (addi (Host.remsi x (broadcastInDim S2016 ![] bcast_S_S2016 (safeDiv d))) (broadcastInDim S2016 ![] bcast_S_S2016 (safeDiv d)))
    (Host.remsi x (broadcastInDim S2016 ![] bcast_S_S2016 (safeDiv d)))

/-- The row of each position. -/
def iu : IVec S2016 32 := frem (fdiv flat (k32 64#32)) (k32 64#32)
/-- The column of each position. -/
def ju : IVec S2016 32 := frem (fdiv flat (k32 1#32)) (k32 64#32)

/-- A negative index counts from the end of an axis of 64. -/
def wrap64 (v : IVec S2016 32) : IVec S2016 32 :=
  select (cmpi .slt v (broadcastInDim S2016 ![] bcast_S_S2016 (k32 0#32))) (addi v (broadcastInDim S2016 ![] bcast_S_S2016 (k32 64#32))) v

/-- The two index vectors side by side, [2016, 2]. -/
def idxTail (a b : IVec S2016 32) : IVec S2016x2 32 :=
  concatenate S2016x2 1 [⟨S2016x1, broadcastInDim S2016x1 ![0] bcast_S2016_S2016x1_0 (wrap64 a)⟩,
    ⟨S2016x1, broadcastInDim S2016x1 ![0] bcast_S2016_S2016x1_0 (wrap64 b)⟩] concatenates_S2016x1_S2016x1_S2016x2_d1

/-- The Gram array as the reference computes it. -/
def gramRef (x : FVec Ideal S4096x64x256 .f32) : FVec Ideal S4096x64x64 .f32 :=
  Host.dotGeneral (F := Ideal) dot_S4096x64x256_S4096x64x256_S4096x64x64_2_2_1_1_0_0 none x x

/-- The reference's result. -/
def result (x : FVec Ideal S4096x64x256 .f32) : FVec Ideal S4096x2016 .f32 :=
  Host.gather gather_S4096x64x64_S2016x2_S4096x2016_0_12_n_n_12_1_409611 (gramRef x) (idxTail iu ju)

end Cert.ReferenceIdeal.Stages

end
-- ==== Proof.RefRun.lean ====
/-
  The reference program's run: its host operations in order as one list, the functions it calls
  unfolded at their call sites over each call's own buffers; the program is that list run in
  sequence, every buffer it names is a TensorCore buffer, and so every weakly fair execution ends
  with each buffer at the fold of the operations' results over the launch contents. Read at the
  result buffer, that fold is the composition of the stages: the Gram array gathered at the row
  and column of each strict-upper-triangle position.
-/
import proofs.«134727_j32238024524281_2_alg».proof.Proof.Stages
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

variable [Facts]
open Facts₀ Facts

section Generic

variable {F : FTy → Type} [FloatOps F]

/-- The program's 136 operations in order, each call's body listed at the call over that call's
    buffers: the dot product; the upper-triangle array (nine operations) and the mask; the
    flattening, widening and running count (five); the clip (three) and the wrap of a negative
    count; the scatter of ones; the second running sum (three); twice the floor division
    (sixteen) and the remainder (twenty-one), by 64 and 64 for the row, by 1 and 64 for the
    column; the wrap of a negative index, the two columns side by side, the gather. -/
abbrev ops : List (HloOp τ sig (Elt F)) :=
  [ binary main_arg0 main_arg0 main_v0 ((fun l r => Host.dotGeneral dot_S4096x64x256_S4096x64x256_S4096x64x64_2_2_1_1_0_0 none l r) : (⟨S4096x64x256, .f32⟩ : BufTy).Contents (Elt F) → (⟨S4096x64x256, .f32⟩ : BufTy).Contents (Elt F) → (⟨S4096x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (TRef.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    TRef.reshape (TRef.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (TRef.of main_c_1 : TRef sig ⟨S_, .i32⟩) main_call2.v0 id,
    TRef.unary main_call2.v0 main_call2.v1 (broadcastInDim S4096 ![] bcast_S_S4096),
    TRef.binary main_call2.v1 (TRef.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    TRef.nullary main_call3.call0.c (constantI S_ 32 0#32),
    TRef.unary main_call3.call0.c main_call3.call0.v0 (broadcastInDim S_ ![] bcast_S_S_),
    TRef.binary (TRef.of main_v15 : TRef sig ⟨S2016, .i32⟩) main_call3.call0.v0 main_call3.call0.v1 (fun x v => Host.reduceWindow IntOp.addi ![2016] ![1] ![2015] ![0] x v reduceWindows_S2016_S2016_w2016s1p2015_0 h_S_),
    nullary main_c_5 (constantI S_ 32 64#32),
    TRef.unary (TRef.of main_c_5 : TRef sig ⟨S_, .i32⟩) main_call4.v0 (broadcastInDim S2016 ![] bcast_S_S2016),
    TRef.binary (TRef.of main_v16 : TRef sig ⟨S2016, .i32⟩) main_call4.v0 main_call4.v1 Host.divsi,
    TRef.unary (TRef.of main_v16 : TRef sig ⟨S2016, .i32⟩) main_call4.v2 signi,
    TRef.unary (TRef.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (TRef.of main_c_5 : TRef sig ⟨S_, .i32⟩) main_call4.v6 (broadcastInDim S2016 ![] bcast_S_S2016),
    TRef.binary (TRef.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select,
    nullary main_c_6 (constantI S_ 32 64#32),
    TRef.unary (TRef.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (TRef.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select,
    nullary main_c_7 (constantI S_ 32 1#32),
    TRef.unary (TRef.of main_c_7 : TRef sig ⟨S_, .i32⟩) main_call6.v0 (broadcastInDim S2016 ![] bcast_S_S2016),
    TRef.binary (TRef.of main_v16 : TRef sig ⟨S2016, .i32⟩) main_call6.v0 main_call6.v1 Host.divsi,
    TRef.unary (TRef.of main_v16 : TRef sig ⟨S2016, .i32⟩) main_call6.v2 signi,
    TRef.unary (TRef.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (TRef.of main_c_7 : TRef sig ⟨S_, .i32⟩) main_call6.v6 (broadcastInDim S2016 ![] bcast_S_S2016),
    TRef.binary (TRef.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select,
    nullary main_c_8 (constantI S_ 32 64#32),
    TRef.unary (TRef.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (TRef.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select,
    nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

set_option maxRecDepth 4096 in
/-- The program is that straight line: the functions' definitions unfolded at their calls, both
    sides are one chain of operations once sequencing is reassociated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every buffer an operation names is a TensorCore buffer. -/
theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-! ## The list in pieces

The list is cut where a value with several later uses is complete — the Gram array and the
running count; the flat positions; each floor division; each remainder; the result. -/

/-- The Gram array, the upper-triangle mask and its running count. -/
abbrev opsA : List (HloOp τ sig (Elt F)) :=
  [ binary main_arg0 main_arg0 main_v0 ((fun l r => Host.dotGeneral dot_S4096x64x256_S4096x64x256_S4096x64x64_2_2_1_1_0_0 none l r) : (⟨S4096x64x256, .f32⟩ : BufTy).Contents (Elt F) → (⟨S4096x64x256, .f32⟩ : BufTy).Contents (Elt F) → (⟨S4096x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (TRef.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    TRef.reshape (TRef.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_) ]

/-- The clip, the wrap, the scatter of ones and its running sum: the flat positions. -/
abbrev opsB : List (HloOp τ sig (Elt F)) :=
  [ nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (TRef.of main_c_1 : TRef sig ⟨S_, .i32⟩) main_call2.v0 id,
    TRef.unary main_call2.v0 main_call2.v1 (broadcastInDim S4096 ![] bcast_S_S4096),
    TRef.binary main_call2.v1 (TRef.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    TRef.nullary main_call3.call0.c (constantI S_ 32 0#32),
    TRef.unary main_call3.call0.c main_call3.call0.v0 (broadcastInDim S_ ![] bcast_S_S_),
    TRef.binary (TRef.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

/-- Floor division of the flat positions by 64. -/
abbrev opsC1 : List (HloOp τ sig (Elt F)) :=
  [ nullary main_c_5 (constantI S_ 32 64#32),
    TRef.unary (TRef.of main_c_5 : TRef sig ⟨S_, .i32⟩) main_call4.v0 (broadcastInDim S2016 ![] bcast_S_S2016),
    TRef.binary (TRef.of main_v16 : TRef sig ⟨S2016, .i32⟩) main_call4.v0 main_call4.v1 Host.divsi,
    TRef.unary (TRef.of main_v16 : TRef sig ⟨S2016, .i32⟩) main_call4.v2 signi,
    TRef.unary (TRef.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (TRef.of main_c_5 : TRef sig ⟨S_, .i32⟩) main_call4.v6 (broadcastInDim S2016 ![] bcast_S_S2016),
    TRef.binary (TRef.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select ]

/-- Its remainder by 64: the rows. -/
abbrev opsC2 : List (HloOp τ sig (Elt F)) :=
  [ nullary main_c_6 (constantI S_ 32 64#32),
    TRef.unary (TRef.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (TRef.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select ]

/-- Floor division of the flat positions by 1. -/
abbrev opsD1 : List (HloOp τ sig (Elt F)) :=
  [ nullary main_c_7 (constantI S_ 32 1#32),
    TRef.unary (TRef.of main_c_7 : TRef sig ⟨S_, .i32⟩) main_call6.v0 (broadcastInDim S2016 ![] bcast_S_S2016),
    TRef.binary (TRef.of main_v16 : TRef sig ⟨S2016, .i32⟩) main_call6.v0 main_call6.v1 Host.divsi,
    TRef.unary (TRef.of main_v16 : TRef sig ⟨S2016, .i32⟩) main_call6.v2 signi,
    TRef.unary (TRef.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (TRef.of main_c_7 : TRef sig ⟨S_, .i32⟩) main_call6.v6 (broadcastInDim S2016 ![] bcast_S_S2016),
    TRef.binary (TRef.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select ]

/-- Its remainder by 64: the columns. -/
abbrev opsD2 : List (HloOp τ sig (Elt F)) :=
  [ nullary main_c_8 (constantI S_ 32 64#32),
    TRef.unary (TRef.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (TRef.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select ]

/-- The wrap of negative indices, the two columns side by side, the gather. -/
abbrev opsE : List (HloOp τ sig (Elt F)) :=
  [ nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

theorem ops_eq : (ops (F := F)) = opsA ++ (opsB ++ (opsC1 ++ (opsC2 ++ (opsD1 ++ (opsD2 ++ opsE))))) := rfl

/-- The fold over two lists in a row. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

end Generic

/-! ## The fold, piece by piece

Each piece's fold is read off over an arbitrary starting valuation, so that no equation unrolls
more than one piece. -/

section Value

/-- A running count clipped below at zero. -/
def clipOf (cs : IVec S4096 32) : IVec S4096 32 :=
  maxsi (broadcastInDim S4096 ![] bcast_S_S4096 (id (Stages.k32 0#32))) cs

/-- A negative count taken from the end. -/
def wrapOf (c : IVec S4096 32) : IVec S4096 32 :=
  select (cmpi .slt c (broadcastInDim S4096 ![] bcast_S_S4096 (Stages.k32 0#32)))
    (addi c (broadcastInDim S4096 ![] bcast_S_S4096 (Stages.k32 2016#32))) c

/-- The flat positions from a running count: how many positions have each count, summed. -/
def flatOf (cs : IVec S4096 32) : IVec S2016 32 :=
  Host.reduceWindow IntOp.addi ![2016] ![1] ![2015] ![0]
    (Host.scatter scatter_S2016_S4096x1_S4096_n_0_0_1 IntOp.addi (broadcastInDim S2016 ![] bcast_S_S2016 (Stages.k32 0#32))
      (broadcastInDim S4096x1 ![0] bcast_S4096_S4096x1_0 (wrapOf (clipOf cs))) (broadcastInDim S4096 ![] bcast_S_S4096 (Stages.k32 1#32)))
    Stages.zero0 reduceWindows_S2016_S2016_w2016s1p2015_0 h_S_

theorem flat_eq : Stages.flat = flatOf Stages.csum := rfl

attribute [local irreducible] Host.gather Host.scatter Host.reduceWindow Ideal.matmul Host.remsi Host.divsi

set_option maxRecDepth 8192 in
set_option maxHeartbeats 1000000 in
theorem A_v5 (W : Valuation τ sig (Elt Ideal)) :
    after (opsA (F := Ideal)) W (main_v5 : DevRef τ sig) = Stages.csum := by
  simp only [after_cons, after_nil]
  rfl

set_option maxRecDepth 8192 in
theorem A_v0 (W : Valuation τ sig (Elt Ideal)) :
    after (opsA (F := Ideal)) W (main_v0 : DevRef τ sig) = Stages.gramRef (W (main_arg0 : DevRef τ sig)) := by
  simp only [after_cons, after_nil]
  rfl

set_option maxRecDepth 8192 in
theorem A_arg0 (W : Valuation τ sig (Elt Ideal)) :
    after (opsA (F := Ideal)) W (main_arg0 : DevRef τ sig) = W (main_arg0 : DevRef τ sig) := by
  simp only [after_cons, after_nil]
  rfl

set_option maxRecDepth 8192 in
set_option maxHeartbeats 1000000 in
theorem B_v16 (W : Valuation τ sig (Elt Ideal)) :
    after (opsB (F := Ideal)) W (main_v16 : DevRef τ sig) = flatOf (W (main_v5 : DevRef τ sig)) := by
  simp only [after_cons, after_nil]
  rfl

set_option maxRecDepth 8192 in
theorem B_v0 (W : Valuation τ sig (Elt Ideal)) :
    after (opsB (F := Ideal)) W (main_v0 : DevRef τ sig) = W (main_v0 : DevRef τ sig) := by
  simp only [after_cons, after_nil]
  rfl

set_option maxRecDepth 8192 in
theorem B_arg0 (W : Valuation τ sig (Elt Ideal)) :
    after (opsB (F := Ideal)) W (main_arg0 : DevRef τ sig) = W (main_arg0 : DevRef τ sig) := by
  simp only [after_cons, after_nil]
  rfl

set_option maxRecDepth 8192 in
set_option maxHeartbeats 1000000 in
theorem C1_v17 (W : Valuation τ sig (Elt Ideal)) :
    after (opsC1 (F := Ideal)) W (main_v17 : DevRef τ sig) = Stages.fdiv (W (main_v16 : DevRef τ sig)) (Stages.k32 64#32) := by
  simp only [after_cons, after_nil]
  rfl

set_option maxRecDepth 8192 in
theorem C1_v16 (W : Valuation τ sig (Elt Ideal)) :
    after (opsC1 (F := Ideal)) W (main_v16 : DevRef τ sig) = W (main_v16 : DevRef τ sig) := by
  simp only [after_cons, after_nil]
  rfl

set_option maxRecDepth 8192 in
theorem C1_v0 (W : Valuation τ sig (Elt Ideal)) :
    after (opsC1 (F := Ideal)) W (main_v0 : DevRef τ sig) = W (main_v0 : DevRef τ sig) := by
  simp only [after_cons, after_nil]
  rfl

set_option maxRecDepth 8192 in
theorem C1_arg0 (W : Valuation τ sig (Elt Ideal)) :
    after (opsC1 (F := Ideal)) W (main_arg0 : DevRef τ sig) = W (main_arg0 : DevRef τ sig) := by
  simp only [after_cons, after_nil]
  rfl

set_option maxRecDepth 8192 in
set_option maxHeartbeats 1000000 in
theorem C2_v18 (W : Valuation τ sig (Elt Ideal)) :
    after (opsC2 (F := Ideal)) W (main_v18 : DevRef τ sig) = Stages.frem (W (main_v17 : DevRef τ sig)) (Stages.k32 64#32) := by
  simp only [after_cons, after_nil]
  rfl

set_option maxRecDepth 8192 in
theorem C2_v16 (W : Valuation τ sig (Elt Ideal)) :
    after (opsC2 (F := Ideal)) W (main_v16 : DevRef τ sig) = W (main_v16 : DevRef τ sig) := by
  simp only [after_cons, after_nil]
  rfl

set_option maxRecDepth 8192 in
theorem C2_v0 (W : Valuation τ sig (Elt Ideal)) :
    after (opsC2 (F := Ideal)) W (main_v0 : DevRef τ sig) = W (main_v0 : DevRef τ sig) := by
  simp only [after_cons, after_nil]
  rfl

set_option maxRecDepth 8192 in
theorem C2_arg0 (W : Valuation τ sig (Elt Ideal)) :
    after (opsC2 (F := Ideal)) W (main_arg0 : DevRef τ sig) = W (main_arg0 : DevRef τ sig) := by
  simp only [after_cons, after_nil]
  rfl

set_option maxRecDepth 8192 in
set_option maxHeartbeats 1000000 in
theorem D1_v19 (W : Valuation τ sig (Elt Ideal)) :
    after (opsD1 (F := Ideal)) W (main_v19 : DevRef τ sig) = Stages.fdiv (W (main_v16 : DevRef τ sig)) (Stages.k32 1#32) := by
  simp only [after_cons, after_nil]
  rfl

set_option maxRecDepth 8192 in
theorem D1_v18 (W : Valuation τ sig (Elt Ideal)) :
    after (opsD1 (F := Ideal)) W (main_v18 : DevRef τ sig) = W (main_v18 : DevRef τ sig) := by
  simp only [after_cons, after_nil]
  rfl

set_option maxRecDepth 8192 in
theorem D1_v0 (W : Valuation τ sig (Elt Ideal)) :
    after (opsD1 (F := Ideal)) W (main_v0 : DevRef τ sig) = W (main_v0 : DevRef τ sig) := by
  simp only [after_cons, after_nil]
  rfl

set_option maxRecDepth 8192 in
theorem D1_arg0 (W : Valuation τ sig (Elt Ideal)) :
    after (opsD1 (F := Ideal)) W (main_arg0 : DevRef τ sig) = W (main_arg0 : DevRef τ sig) := by
  simp only [after_cons, after_nil]
  rfl

set_option maxRecDepth 8192 in
set_option maxHeartbeats 1000000 in
theorem D2_v20 (W : Valuation τ sig (Elt Ideal)) :
    after (opsD2 (F := Ideal)) W (main_v20 : DevRef τ sig) = Stages.frem (W (main_v19 : DevRef τ sig)) (Stages.k32 64#32) := by
  simp only [after_cons, after_nil]
  rfl

set_option maxRecDepth 8192 in
theorem D2_v18 (W : Valuation τ sig (Elt Ideal)) :
    after (opsD2 (F := Ideal)) W (main_v18 : DevRef τ sig) = W (main_v18 : DevRef τ sig) := by
  simp only [after_cons, after_nil]
  rfl

set_option maxRecDepth 8192 in
theorem D2_v0 (W : Valuation τ sig (Elt Ideal)) :
    after (opsD2 (F := Ideal)) W (main_v0 : DevRef τ sig) = W (main_v0 : DevRef τ sig) := by
  simp only [after_cons, after_nil]
  rfl

set_option maxRecDepth 8192 in
theorem D2_arg0 (W : Valuation τ sig (Elt Ideal)) :
    after (opsD2 (F := Ideal)) W (main_arg0 : DevRef τ sig) = W (main_arg0 : DevRef τ sig) := by
  simp only [after_cons, after_nil]
  rfl

set_option maxRecDepth 8192 in
set_option maxHeartbeats 1000000 in
theorem E_v34 (W : Valuation τ sig (Elt Ideal)) :
    after (opsE (F := Ideal)) W (main_v34 : DevRef τ sig) = Host.gather gather_S4096x64x64_S2016x2_S4096x2016_0_12_n_n_12_1_409611 (W (main_v0 : DevRef τ sig))
          (Stages.idxTail (W (main_v18 : DevRef τ sig)) (W (main_v20 : DevRef τ sig))) := by
  simp only [after_cons, after_nil]
  rfl

set_option maxRecDepth 8192 in
theorem E_arg0 (W : Valuation τ sig (Elt Ideal)) :
    after (opsE (F := Ideal)) W (main_arg0 : DevRef τ sig) = W (main_arg0 : DevRef τ sig) := by
  simp only [after_cons, after_nil]
  rfl

/-- At the result buffer the fold is the stages' composition. -/
theorem out_eq (V : Valuation τ sig (Elt Ideal)) :
    after (ops (F := Ideal)) V (main_v34 : DevRef τ sig) = Stages.result (V (main_arg0 : DevRef τ sig)) := by
  rw [ops_eq, after_append, after_append, after_append, after_append, after_append, after_append,
    E_v34, D2_v20, D2_v18, D2_v0, D1_v19, D1_v18, D1_v0, C2_v18, C2_v16, C2_v0, C1_v17, C1_v16, C1_v0,
    B_v16, B_v0, A_v5, A_v0, ← flat_eq]
  rfl

/-- No operation writes the argument. -/
theorem arg0_eq (V : Valuation τ sig (Elt Ideal)) :
    after (ops (F := Ideal)) V (main_arg0 : DevRef τ sig) = V (main_arg0 : DevRef τ sig) := by
  rw [ops_eq, after_append, after_append, after_append, after_append, after_append, after_append,
    E_arg0, D2_arg0, D1_arg0, C2_arg0, C1_arg0, B_arg0, A_arg0]

end Value

/-- From any memory with zero counters, every weakly fair execution of the reference terminates
    with the result buffer at the stages' composition of the argument's launch contents and the
    argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v34) = Stages.result (m ((c.tc : Thread nD τ).loc main_arg0))
      ∧ r.2.mem ((c.tc : Thread nD τ).loc main_arg0) = m ((c.tc : Thread nD τ).loc main_arg0)) :=
  (θ_run defs _ _).mono (fun _ h c => ⟨(h c main_v34).trans (out_eq _), (h c main_arg0).trans (arg0_eq _)⟩)
    (run_seq scopedRefs_eq scopedSems_eq defs main (fun _ => ops) main_eq (fun _ => ops_sub) m ρ)

end Cert.ReferenceIdeal.RefRun

end
-- ==== Proof.GramRef.lean ====
/-
  The reference's batched `dot_general` (batch axis 0 of both operands, contraction over the last
  axis of both) is the Gram array: at the ideal values a host dot product is the plain sum over the
  contracted coordinate, and the operand indices at output index (b, i, j) and contraction position d
  are (b, i, d) and (b, j, d).
-/
import proofs.«134727_j32238024524281_2_alg».proof.Proof.Stages
import proofs.«134727_j32238024524281_2_alg».proof.Proof.Spec
import Idealize.ShloMosaic.PureOps.Ideal.Laws
import Idealize.ShloMosaic.Lib.ValueIdx

noncomputable section

namespace Cert.ReferenceIdeal.GramRef

open Idealize.ShloMosaic Idealize.ShloMosaic.ValueIdx Cert.ReferenceIdeal

variable [Facts]
open Facts₀ Facts

/-- The dot's one contracted axis has extent 256. -/
abbrev D := dot_S4096x64x256_S4096x64x256_S4096x64x64_2_2_1_1_0_0

theorem lhs_idx (b : Fin 4096) (i j : Fin 64) (d : Fin 256) :
    D.lhsIdx (ix3 b i j) ((contrEquiv1 D 256 rfl rfl).symm d) = ix3 b i d := by
  funext a
  apply Fin.ext
  match a with
  | ⟨0, _⟩ => rfl
  | ⟨1, _⟩ => rfl
  | ⟨2, _⟩ =>
    exact (D.lhsIdx_val_of_single (cl := (2 : Fin 3)) rfl (ix3 b i j) _).trans (contrEquiv1_symm_val D 256 rfl rfl d)

theorem rhs_idx (b : Fin 4096) (i j : Fin 64) (d : Fin 256) :
    D.rhsIdx (ix3 b i j) ((contrEquiv1 D 256 rfl rfl).symm d) = ix3 b j d := by
  funext a
  apply Fin.ext
  match a with
  | ⟨0, _⟩ => rfl
  | ⟨1, _⟩ => rfl
  | ⟨2, _⟩ =>
    exact (D.rhsIdx_val_of_single (cr := (2 : Fin 3)) rfl (ix3 b i j) _).trans (contrEquiv1_symm_val D 256 rfl rfl d)

/-- The reference's dot product is the Gram array. -/
theorem gramRef_eq (x : FVec Ideal S4096x64x256 .f32) : Stages.gramRef x = Cert.Gram.gramArr x := by
  funext j
  obtain ⟨b, i, jj, rfl⟩ : ∃ (b : Fin 4096) (i jj : Fin 64), j = ix3 b i jj := ⟨j 0, j 1, j 2, eq_ix3 j⟩
  rw [Cert.Gram.gramArr_apply]
  unfold Stages.gramRef Cert.Gram.gramAt
  refine (Ideal.dotGeneral_apply D none .single x x (ix3 b i jj)).trans ?_
  refine (Equiv.sum_comp (contrEquiv1 D 256 rfl rfl).symm _).symm.trans ?_
  refine Finset.sum_congr rfl fun d _ => ?_
  rw [lhs_idx, rhs_idx]

end Cert.ReferenceIdeal.GramRef

end
-- ==== Proof.Mask.lean ====
/-
  The reference's mask read at a position.  A 64×64 array of ones is zeroed on and below the
  diagonal (where row ≥ column), compared with zero, flattened row-major and widened to 32 bits:
  flag `k = 64·a + b` is one exactly when `a < b`.
-/
import proofs.«134727_j32238024524281_2_alg».proof.Proof.Stages
import Idealize.ShloMosaic.PureOps.Ideal.Laws
import Idealize.ShloMosaic.Lib.ValueIdx
import Idealize.ShloMosaic.Lib.Pipeline.Value

noncomputable section

namespace Cert.ReferenceIdeal.Mask

open Idealize.ShloMosaic Idealize.ShloMosaic.ValueIdx Cert.ReferenceIdeal

variable [Facts]
open Facts₀ Facts

/-- Signed comparison of two small numbers as 32-bit words. -/
theorem sge_small : ∀ a b : Fin 64,
    IntOp.cmpi .sge (IntOp.addi (BitVec.ofNat 32 a.val) 0#32) (BitVec.ofNat 32 b.val) = if b.val ≤ a.val then 1#1 else 0#1 := by
  decide +kernel

/-- The float one is not the float zero. -/
theorem one_ne_zero : Ideal.ofBits .f32 0x3F800000#32 ≠ 0 := by
  simp [Ideal.ofBits, Ideal.ieee]

/-- The mask at row `a`, column `b`. -/
theorem mask_apply (a b : Fin 64) : Stages.mask (ix2 a b) = if a.val < b.val then 1#1 else 0#1 := by
  show Ideal.cmp .une (Scalar.select (IntOp.cmpi .sge (IntOp.addi (BitVec.ofNat 32 a.val) 0#32) (BitVec.ofNat 32 b.val))
      (Ideal.ofBits .f32 0x00000000#32) (Ideal.ofBits .f32 0x3F800000#32)) (Ideal.ofBits .f32 0x00000000#32) = _
  rw [sge_small]
  by_cases h : b.val ≤ a.val
  · rw [if_pos h, if_neg (by omega), select_one]
    simp [Ideal.cmp]
  · rw [if_neg h, if_pos (by omega), select_zero]
    simp [Ideal.cmp, one_ne_zero]

/-- The flattened, widened mask at position `k`. -/
theorem maskFlat_apply (k : Fin 4096) :
    Stages.maskFlat (ix1 k) = BitVec.ofNat 32 (if k.val / 64 < k.val % 64 then 1 else 0) := by
  have hk := k.isLt
  have e : shapeCast S4096 Stages.mask shapeCasts_S64x64_S4096 (ix1 k)
      = Stages.mask (ix2 (⟨k.val / 64, by omega⟩ : Fin 64) (⟨k.val % 64, by omega⟩ : Fin 64)) :=
    shapeCast_apply _ _ _ _ (by
      rw [Shape.rowMajor_val_two, Shape.rowMajor_val_one]
      show k.val / 64 * 64 + k.val % 64 = k.val
      omega)
  show (shapeCast S4096 Stages.mask shapeCasts_S64x64_S4096 (ix1 k)).setWidth 32 = _
  rw [e, mask_apply]
  show (if k.val / 64 < k.val % 64 then 1#1 else 0#1).setWidth 32 = _
  by_cases h : k.val / 64 < k.val % 64
  · rw [if_pos h, if_pos h]; decide
  · rw [if_neg h, if_neg h]; decide

end Cert.ReferenceIdeal.Mask

end
-- ==== Proof.DivMod.lean ====
/-
  The reference's floor division and remainder of a flat position by 64 (and by 1), entry by entry.
  Both are spelt on signed 32-bit words with sign corrections; on a position below 4096 and a positive
  divisor no correction applies, so they are the natural quotient and remainder.
-/
import proofs.«134727_j32238024524281_2_alg».proof.Proof.Stages
import Idealize.ShloMosaic.Lib.ValueIdx

noncomputable section

namespace Cert.ReferenceIdeal.DivMod

open Idealize.ShloMosaic Idealize.ShloMosaic.ValueIdx Cert.ReferenceIdeal

/-- The sign of a word: 0, −1 or 1. -/
def sgn (x : BitVec 32) : BitVec 32 := if x = 0 then 0 else if x.msb then -1 else 1

/-- Floor division of one word by another, as the program spells it. -/
def fdivS (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The divisor the remainder uses: one in place of zero. -/
def safeS (d : BitVec 32) : BitVec 32 := Scalar.select (IntOp.cmpi .eq d 0#32) 1#32 d

/-- The remainder with the divisor's sign, as the program spells it. -/
def fremS (x d : BitVec 32) : BitVec 32 :=
  Scalar.select
    (IntOp.andi (IntOp.cmpi .ne (IntOp.cmpi .slt (IntOp.remsi .host x (safeS d)) 0#32) (IntOp.cmpi .slt (safeS d) 0#32))
      (IntOp.cmpi .ne (IntOp.remsi .host x (safeS d)) 0#32))
    (IntOp.addi (IntOp.remsi .host x (safeS d)) (safeS d))
    (IntOp.remsi .host x (safeS d))

theorem fdivS_64 : ∀ n : Fin 4096, fdivS (BitVec.ofNat 32 n.val) 64#32 = BitVec.ofNat 32 (n.val / 64) := by
  decide +kernel

theorem fdivS_1 : ∀ n : Fin 4096, fdivS (BitVec.ofNat 32 n.val) 1#32 = BitVec.ofNat 32 n.val := by
  decide +kernel

theorem fremS_64 : ∀ n : Fin 4096, fremS (BitVec.ofNat 32 n.val) 64#32 = BitVec.ofNat 32 (n.val % 64) := by
  decide +kernel

variable [Facts]
open Facts₀ Facts

theorem fdiv_apply (x : IVec S2016 32) (d : BitVec 32) (p : Fin 2016) :
    Stages.fdiv x (Stages.k32 d) (ix1 p) = fdivS (x (ix1 p)) d := rfl

theorem frem_apply (x : IVec S2016 32) (d : BitVec 32) (p : Fin 2016) :
    Stages.frem x (Stages.k32 d) (ix1 p) = fremS (x (ix1 p)) d := rfl

/-- The row of a position below 4096. -/
theorem iu_of_flat (p : Fin 2016) (n : Fin 4096) (h : Stages.flat (ix1 p) = BitVec.ofNat 32 n.val) :
    Stages.iu (ix1 p) = BitVec.ofNat 32 (n.val / 64) := by
  have hn := n.isLt
  unfold Stages.iu
  rw [frem_apply, fdiv_apply, h, fdivS_64 n]
  have := fremS_64 ⟨n.val / 64, by omega⟩
  rw [this]
  congr 1
  show n.val / 64 % 64 = n.val / 64
  omega

/-- The column of a position below 4096. -/
theorem ju_of_flat (p : Fin 2016) (n : Fin 4096) (h : Stages.flat (ix1 p) = BitVec.ofNat 32 n.val) :
    Stages.ju (ix1 p) = BitVec.ofNat 32 (n.val % 64) := by
  unfold Stages.ju
  rw [frem_apply, fdiv_apply, h, fdivS_1 n]
  exact fremS_64 n

end Cert.ReferenceIdeal.DivMod

end
-- ==== Proof.LibCumsum.lean ====
import Idealize.ShloMosaic.PureOps.Contract
import Idealize.ShloMosaic.Lib.ValueIdx
import Mathlib.Data.BitVec
import Mathlib.Algebra.BigOperators.Fin
import Mathlib.Algebra.BigOperators.Intervals

/-!
# The integer cumulative sum written as a one-axis window reduction

A cumulative sum over an axis of extent `N` is printed as a window reduction with window `N`,
stride one, `N - 1` cells of low padding and none of high padding, whose body is integer addition
and whose initial value is zero. Output position `j` adds the padded operand over positions
`j, …, j + N - 1`; position `j + n` holds operand element `j + n - (N - 1)` when that is not
negative and the initial value (zero) otherwise, so the result is the sum of the operand's elements
`0, …, j`.
-/

namespace Cert.Lib.Cumsum
open Idealize.ShloMosaic Idealize.ShloMosaic.ValueIdx

/-- A left fold adding one term per list element is the starting value plus the sum of the terms. -/
theorem foldl_add_eq {α ι : Type} [AddCommMonoid α] (g : ι → α) (l : List ι) (a : α) :
    l.foldl (fun r n => r + g n) a = a + (l.map g).sum := by
  induction l generalizing a with
  | nil => simp
  | cons b l ih => simp [ih, add_assoc]

/-- The rank-one indices of extent `N` are the coordinates below `N`. -/
def idx1Equiv (N : Nat) : Fin N ≃ (⟨1, ![N]⟩ : Shape).Idx where
  toFun := ix1
  invFun := fun i => i 0
  left_inv := fun _ => rfl
  right_inv := fun i => (eq_ix1 i).symm

/-- A sum over the row-major positions of a rank-one shape is the sum over its coordinates (the
    order of the terms does not matter in a commutative monoid). -/
theorem sum_rowMajor_symm_one {α : Type} [AddCommMonoid α] (N : Nat) (G : (⟨1, ![N]⟩ : Shape).Idx → α) :
    ∑ n : Fin (⟨1, ![N]⟩ : Shape).numel, G ((⟨1, ![N]⟩ : Shape).rowMajor.symm n) = ∑ m : Fin N, G (ix1 m) := by
  rw [Equiv.sum_comp (⟨1, ![N]⟩ : Shape).rowMajor.symm G, ← Equiv.sum_comp (idx1Equiv N) G]
  rfl

/-- Shifting a sum over `0, …, N - 1`: with `P + 1 = N` and `j < N`, the terms `y (j + n - P)` over the
    `n < N` with `P ≤ j + n` are the terms `y k` over `k ≤ j`. -/
theorem sum_shift {α : Type} [AddCommMonoid α] (N P j : Nat) (hP : P + 1 = N) (hj : j < N) (y : Nat → α) :
    ∑ n ∈ Finset.range N, (if P ≤ j + n then y (j + n - P) else 0)
      = ∑ k ∈ Finset.range N, (if k ≤ j then y k else 0) := by
  have e1 : Finset.range N = Finset.range ((P - j) + (j + 1)) := congrArg _ (by omega)
  have e2 : Finset.range N = Finset.range ((j + 1) + (P - j)) := congrArg _ (by omega)
  conv_lhs => rw [e1, Finset.sum_range_add]
  conv_rhs => rw [e2, Finset.sum_range_add]
  have h1 : ∑ n ∈ Finset.range (P - j), (if P ≤ j + n then y (j + n - P) else 0) = 0 :=
    Finset.sum_eq_zero fun n hn => by
      rw [Finset.mem_range] at hn
      rw [if_neg (by omega)]
  have h2 : ∑ i ∈ Finset.range (P - j), (if j + 1 + i ≤ j then y (j + 1 + i) else 0) = 0 :=
    Finset.sum_eq_zero fun i _ => by rw [if_neg (by omega)]
  rw [h1, h2, zero_add, add_zero]
  refine Finset.sum_congr rfl fun i hi => ?_
  rw [Finset.mem_range] at hi
  rw [if_pos (by omega), if_pos (by omega)]
  congr 1
  omega

/-- The integer cumulative sum as it is printed — a one-axis window reduction with window `N`, stride
    one, low padding `P = N - 1`, no high padding, body integer addition and initial value zero — at
    position `j` is the sum of the operand's elements at the positions `k ≤ j`. -/
theorem cumsum_apply (N P : Nat) (hP : P + 1 = N) (x : IVec ⟨1, ![N]⟩ 32) (init : IVec ⟨0, ![]⟩ 32)
    (h : (⟨1, ![N]⟩ : Shape).ReduceWindows (![N] : Fin 1 → Nat) ![1] ![P] ![0] ⟨1, ![N]⟩) (hu : 0 < (⟨0, ![]⟩ : Shape).numel)
    (hinit : init ix0 = 0#32) (j : Fin N) :
    Host.reduceWindow IntOp.addi ![N] ![1] ![P] ![0] x init h hu (ix1 j)
      = ∑ k ∈ Finset.univ.filter (fun k : Fin N => k ≤ j), x (ix1 k) := by
  have hv : init (Shape.Idx.first hu) = 0 := by rw [eq_ix0 (Shape.Idx.first hu)]; exact hinit
  unfold Host.reduceWindow
  simp only [hv]
  -- the term added at window position `i`
  let G : (⟨1, ![N]⟩ : Shape).Idx → BitVec 32 := fun i =>
    if h_1 : ∀ a : Fin 1, ![P] a ≤ (ix1 j (Fin.cast rfl a)).val * ![1] a + (i a).val ∧
        (ix1 j (Fin.cast rfl a)).val * ![1] a + (i a).val - ![P] a < ![N] a
    then x fun a => ⟨(ix1 j (Fin.cast rfl a)).val * ![1] a + (i a).val - ![P] a, (h_1 a).2⟩ else 0
  show List.foldl (fun r n => r + G ((⟨1, ![N]⟩ : Shape).rowMajor.symm n)) 0 _ = _
  rw [foldl_add_eq (fun n => G ((⟨1, ![N]⟩ : Shape).rowMajor.symm n)), zero_add, ← Fin.sum_univ_def,
    sum_rowMajor_symm_one N G]
  -- the operand read at a natural-number position, zero past the end
  let y : Nat → BitVec 32 := fun k => if hk : k < N then x (ix1 ⟨k, hk⟩) else 0
  have hy : ∀ k : Fin N, y k.val = x (ix1 k) := fun k => dif_pos k.isLt
  have hG : ∀ m : Fin N, G (ix1 m) = if P ≤ j.val + m.val then y (j.val + m.val - P) else 0 := by
    intro m
    by_cases hc : P ≤ j.val + m.val
    · have hlt : j.val + m.val - P < N := by omega
      have hcond : ∀ a : Fin 1, ![P] a ≤ (ix1 j (Fin.cast rfl a)).val * ![1] a + (ix1 m a).val ∧
          (ix1 j (Fin.cast rfl a)).val * ![1] a + (ix1 m a).val - ![P] a < ![N] a := by
        intro a
        obtain rfl : a = 0 := Subsingleton.elim _ _
        show P ≤ j.val * 1 + m.val ∧ j.val * 1 + m.val - P < N
        omega
      rw [if_pos hc]
      show (if h_1 : _ then _ else _) = _
      rw [dif_pos hcond]
      show _ = if hk : j.val + m.val - P < N then x (ix1 ⟨j.val + m.val - P, hk⟩) else 0
      rw [dif_pos hlt]
      congr 1
      funext a
      obtain rfl : a = 0 := Subsingleton.elim _ _
      apply Fin.ext
      show j.val * 1 + m.val - P = j.val + m.val - P
      omega
    · have hcond : ¬ ∀ a : Fin 1, ![P] a ≤ (ix1 j (Fin.cast rfl a)).val * ![1] a + (ix1 m a).val ∧
          (ix1 j (Fin.cast rfl a)).val * ![1] a + (ix1 m a).val - ![P] a < ![N] a := by
        intro hall
        have h0 := (hall 0).1
        change P ≤ j.val * 1 + m.val at h0
        omega
      rw [if_neg hc]
      show (if h_1 : _ then _ else _) = _
      rw [dif_neg hcond]
  rw [Finset.sum_congr rfl (fun m _ => hG m), Finset.sum_filter,
    Fin.sum_univ_eq_sum_range (fun n => if P ≤ j.val + n then y (j.val + n - P) else 0) N,
    sum_shift N P j.val hP j.isLt y, ← Fin.sum_univ_eq_sum_range (fun k => if k ≤ j.val then y k else 0) N]
  refine Finset.sum_congr rfl fun k _ => ?_
  by_cases hk : k ≤ j
  · rw [if_pos hk, if_pos (Fin.le_def.mp hk), hy]
  · rw [if_neg hk, if_neg (fun hk' => hk (Fin.le_def.mpr hk'))]

/-- The printed integer cumulative sum of an operand whose elements are the 32-bit images of the
    natural numbers `cnt k` is the 32-bit image of the partial sum of `cnt`. -/
theorem cumsum_ofNat (N P : Nat) (hP : P + 1 = N) (x : IVec ⟨1, ![N]⟩ 32) (init : IVec ⟨0, ![]⟩ 32)
    (h : (⟨1, ![N]⟩ : Shape).ReduceWindows (![N] : Fin 1 → Nat) ![1] ![P] ![0] ⟨1, ![N]⟩) (hu : 0 < (⟨0, ![]⟩ : Shape).numel)
    (hinit : init ix0 = 0#32)
    (cnt : Fin N → Nat) (hx : ∀ k : Fin N, x (ix1 k) = BitVec.ofNat 32 (cnt k)) (j : Fin N) :
    Host.reduceWindow IntOp.addi ![N] ![1] ![P] ![0] x init h hu (ix1 j)
      = BitVec.ofNat 32 (∑ k ∈ Finset.univ.filter (fun k : Fin N => k ≤ j), cnt k) := by
  rw [cumsum_apply N P hP x init h hu hinit j, Finset.sum_congr rfl (fun k _ => hx k)]
  -- the 32-bit image of a natural number is its cast into the ring of 32-bit words, and casts commute with sums
  show ∑ k ∈ Finset.univ.filter (fun k : Fin N => k ≤ j), ((cnt k : Nat) : BitVec 32)
      = ((∑ k ∈ Finset.univ.filter (fun k : Fin N => k ≤ j), cnt k : Nat) : BitVec 32)
  exact (Nat.cast_sum _ _).symm

section Unify
/-- The scalar shape. -/
private abbrev S_ : Shape := ⟨0, ![]⟩
/-- A one-axis shape of extent 4096. -/
private abbrev S4096 : Shape := ⟨1, ![4096]⟩
/-- A one-axis shape of extent 2016. -/
private abbrev S2016 : Shape := ⟨1, ![2016]⟩

-- the theorems apply to the window reduction over named shapes with numeral extents
example (x : IVec S4096 32) (v : IVec S_ 32)
    (hw : S4096.ReduceWindows (![4096] : Fin 1 → Nat) ![1] ![4095] ![0] S4096) (h_S_ : 0 < S_.numel)
    (hv : v ix0 = 0#32) (j : Fin 4096) :
    Host.reduceWindow IntOp.addi ![4096] ![1] ![4095] ![0] x v hw h_S_ (ix1 j)
      = ∑ k ∈ Finset.univ.filter (fun k : Fin 4096 => k ≤ j), x (ix1 k) := by
  exact cumsum_apply 4096 4095 rfl x v hw h_S_ hv j

example (x : IVec S2016 32) (v : IVec S_ 32)
    (hw : S2016.ReduceWindows (![2016] : Fin 1 → Nat) ![1] ![2015] ![0] S2016) (h_S_ : 0 < S_.numel)
    (hv : v ix0 = 0#32) (cnt : Fin 2016 → Nat) (hx : ∀ k : Fin 2016, x (ix1 k) = BitVec.ofNat 32 (cnt k))
    (j : Fin 2016) :
    Host.reduceWindow IntOp.addi ![2016] ![1] ![2015] ![0] x v hw h_S_ (ix1 j)
      = BitVec.ofNat 32 (∑ k ∈ Finset.univ.filter (fun k : Fin 2016 => k ≤ j), cnt k) := by
  exact cumsum_ofNat 2016 2015 rfl x v hw h_S_ hv cnt hx j
end Unify

end Cert.Lib.Cumsum
-- ==== Proof.LibScatterOnce.lean ====
/-
  A host scatter with ANY update body, read at ONE index of its result that at most one update lands on.

  The scatter is a left fold over the update indices in row-major order: each update whose landing index is inside
  the operand replaces the element there by the body applied to that element and the update's. Read at a fixed result
  index `i'`:
  * if no update lands on `i'`, the element is the operand's;
  * if exactly one update `j₀` lands on `i'`, the element is the body applied to the operand's element and `j₀`'s.
  This covers an `x.at[…].set(v)` and an `x.at[…].add(v)` over a single scatter index alike: there each element of
  the operand meets at most one update. Nothing is assumed of the dimension numbers: which update lands where is the
  caller's to compute.
-/
import Idealize.ShloMosaic.PureOps

namespace Idealize.ShloMosaic

variable {s si u : Shape} {α : Type} {w : Nat}

/-- One step of the fold: update number `n` combines into the element at its landing index, if it has one. -/
def Host.scatterStep (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of that step over the update numbers in order. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update does not land on `i'` leaves the element at `i'` alone. -/
theorem Host.scatterStep_of_ne (d : ScatterDims s si u) (f : α → α → α) (idx : IVec si w) (upd : u.Idx → α)
    (r : s.Idx → α) (n : Fin u.numel) (i' : s.Idx) (h : d.resultIdx? (u.rowMajor.symm n) idx ≠ some i') :
    Host.scatterStep d f idx upd r n i' = r i' := by
  unfold Host.scatterStep
  cases hr : d.resultIdx? (u.rowMajor.symm n) idx with
  | none => rfl
  | some i => exact if_neg fun e => h (by rw [hr, e])

/-- A step whose update lands on `i'` combines the update's value into the element there. -/
theorem Host.scatterStep_of_eq (d : ScatterDims s si u) (f : α → α → α) (idx : IVec si w) (upd : u.Idx → α)
    (r : s.Idx → α) (n : Fin u.numel) (i' : s.Idx) (h : d.resultIdx? (u.rowMajor.symm n) idx = some i') :
    Host.scatterStep d f idx upd r n i' = f (r i') (upd (u.rowMajor.symm n)) := by
  unfold Host.scatterStep
  rw [h]
  exact if_pos rfl

/-- Folding steps none of which lands on `i'` leaves the element at `i'` alone. -/
theorem Host.foldl_scatterStep_of_miss (d : ScatterDims s si u) (f : α → α → α) (idx : IVec si w) (upd : u.Idx → α)
    (i' : s.Idx) (l : List (Fin u.numel)) (x : s.Idx → α)
    (h : ∀ n ∈ l, d.resultIdx? (u.rowMajor.symm n) idx ≠ some i') :
    l.foldl (Host.scatterStep d f idx upd) x i' = x i' := by
  induction l generalizing x with
  | nil => rfl
  | cons a l ih =>
    rw [List.foldl_cons, ih _ fun n hn => h n (List.mem_cons_of_mem _ hn)]
    exact Host.scatterStep_of_ne d f idx upd x a i' (h a List.mem_cons_self)

/-- Folding steps over a list without repeats of which exactly one, `n₀`, lands on `i'`: the body applied once. -/
theorem Host.foldl_scatterStep_of_once (d : ScatterDims s si u) (f : α → α → α) (idx : IVec si w) (upd : u.Idx → α)
    (i' : s.Idx) (n0 : Fin u.numel) (h0 : d.resultIdx? (u.rowMajor.symm n0) idx = some i')
    (l : List (Fin u.numel)) (hnd : l.Nodup) (hmem : n0 ∈ l)
    (huniq : ∀ n ∈ l, d.resultIdx? (u.rowMajor.symm n) idx = some i' → n = n0) (x : s.Idx → α) :
    l.foldl (Host.scatterStep d f idx upd) x i' = f (x i') (upd (u.rowMajor.symm n0)) := by
  induction l generalizing x with
  | nil => cases hmem
  | cons a l ih =>
    rw [List.foldl_cons]
    have hnd' := List.nodup_cons.1 hnd
    by_cases ha : a = n0
    · have hmiss : ∀ n ∈ l, d.resultIdx? (u.rowMajor.symm n) idx ≠ some i' := fun n hn e => by
        have hn0 := huniq n (List.mem_cons_of_mem _ hn) e
        rw [hn0, ← ha] at hn
        exact hnd'.1 hn
      rw [Host.foldl_scatterStep_of_miss d f idx upd i' l _ hmiss, ha,
        Host.scatterStep_of_eq d f idx upd x n0 i' h0]
    · have hmem' : n0 ∈ l := by
        rcases List.mem_cons.1 hmem with h | h
        · exact absurd h.symm ha
        · exact h
      have hamiss : d.resultIdx? (u.rowMajor.symm a) idx ≠ some i' := fun e => ha (huniq a List.mem_cons_self e)
      rw [ih hnd'.2 hmem' (fun n hn => huniq n (List.mem_cons_of_mem _ hn)),
        Host.scatterStep_of_ne d f idx upd x a i' hamiss]

/-- A scatter read at an index NO update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [Host.scatter_eq_foldl]
  exact Host.foldl_scatterStep_of_miss d f idx upd i' _ x fun n _ => h _

/-- A scatter read at an index exactly one update `j₀` lands on: the body applied to the operand's element and
    `j₀`'s. -/
theorem Host.scatter_apply_of_once (d : ScatterDims s si u) (f : α → α → α) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d f x idx upd i' = f (x i') (upd j0) := by
  rw [Host.scatter_eq_foldl]
  have key := Host.foldl_scatterStep_of_once d f idx upd i' (u.rowMajor j0)
    (by rw [Equiv.symm_apply_apply]; exact h0) (List.finRange u.numel) (List.nodup_finRange _) (List.mem_finRange _)
    (fun n _ e => by have hj := huniq _ e; rw [← hj, Equiv.apply_symm_apply]) x
  rw [key, Equiv.symm_apply_apply]

end Idealize.ShloMosaic
-- ==== Proof.LibBincount.lean ====
/-
  An integer bincount as a host scatter: N scalar updates added into a vector of length P, one scatter index per
  update (scatter indices of shape [N, 1] with the index vector on axis 1, no window axes, the operand's one axis both
  inserted and scattered).

  The scatter is a left fold over the updates in order. Update k lands on element v exactly when its index, read as a
  signed integer, equals v; an index outside [0, P) lands nowhere and the update is dropped. Because the body is an
  addition in a commutative monoid, element v of the result is the operand's element plus the sum of the updates that
  land on v. With an operand of zeros and updates all equal to one, element v is the number of updates whose index
  is v.
-/
import proofs.«134727_j32238024524281_2_alg».proof.Proof.LibScatterOnce
import Idealize.ShloMosaic.PureOps.Dims
import Idealize.ShloMosaic.PureOps.ShapeOps
import Idealize.ShloMosaic.Lib.ValueIdx
import Mathlib.Algebra.BigOperators.Fin
import Mathlib.Data.BitVec

namespace Cert.Lib.Bincount

open Idealize.ShloMosaic Idealize.ShloMosaic.ValueIdx

section Fold

variable {s si u : Shape} {α : Type} {w : Nat} [AddCommMonoid α]

/-- Folding adding steps over a list of update numbers, read at `i'`: the starting element plus the sum, over the
    list, of the updates that land on `i'`. -/
theorem foldl_scatterStep_add (d : ScatterDims s si u) (idx : IVec si w) (upd : u.Idx → α) (i' : s.Idx)
    (l : List (Fin u.numel)) (x : s.Idx → α) :
    l.foldl (Host.scatterStep d (fun a b => a + b) idx upd) x i'
      = x i' + (l.map fun n =>
          if d.resultIdx? (u.rowMajor.symm n) idx = some i' then upd (u.rowMajor.symm n) else 0).sum := by
  induction l generalizing x with
  | nil => simp
  | cons a l ih =>
    rw [List.foldl_cons, ih, List.map_cons, List.sum_cons]
    by_cases h : d.resultIdx? (u.rowMajor.symm a) idx = some i'
    · rw [Host.scatterStep_of_eq d _ idx upd x a i' h, if_pos h, add_assoc]
    · rw [Host.scatterStep_of_ne d _ idx upd x a i' h, if_neg h, zero_add]

/-- A host scatter whose body adds, read at `i'`: the operand's element plus the sum of the updates landing on
    `i'`. -/
theorem scatter_add_apply (d : ScatterDims s si u) (x : s.Idx → α) (idx : IVec si w) (upd : u.Idx → α) (i' : s.Idx) :
    Host.scatter d (fun a b => a + b) x idx upd i'
      = x i' + ∑ j : u.Idx, if d.resultIdx? j idx = some i' then upd j else 0 := by
  rw [Host.scatter_eq_foldl, foldl_scatterStep_add, ← Fin.sum_univ_def]
  congr 1
  exact Equiv.sum_comp u.rowMajor.symm (fun j => if d.resultIdx? j idx = some i' then upd j else 0)

end Fold

/-- The dimension numbers of the bincount scatter: operand `[P]`, scatter indices `[N, 1]`, updates `[N]`; their
    conditions `wf` are decided on a program's literal shapes. -/
abbrev binDims (P N : Nat) (wf : ScatterDims.WF ⟨1, ![P]⟩ ⟨2, ![N, 1]⟩ ⟨1, ![N]⟩ [] [0] [0] 1) :
    ScatterDims ⟨1, ![P]⟩ ⟨2, ![N, 1]⟩ ⟨1, ![N]⟩ where
  updateWindowDims := []
  insertedWindowDims := [0]
  scatterDimsToOperandDims := [0]
  indexVectorDim := 1
  wf := wf

section Bin

variable {P N w : Nat} (wf : ScatterDims.WF ⟨1, ![P]⟩ ⟨2, ![N, 1]⟩ ⟨1, ![N]⟩ [] [0] [0] 1)

/-- Update `k` starts at its scatter index `idx[k, 0]`, read as a signed integer. -/
theorem binDims_start (k : Fin N) (idx : IVec ⟨2, ![N, 1]⟩ w) (a : Fin 1) :
    (binDims P N wf).start (ix1 k) idx a = (idx (ix2 k (0 : Fin 1))).toInt := by
  obtain rfl : a = 0 := Subsingleton.elim _ _
  unfold ScatterDims.start
  rw [dif_pos (show (0 : Fin 1) ∈ (binDims P N wf).scatterDimsToOperandDims from List.mem_singleton.mpr rfl)]
  have hsi : (binDims P N wf).siIdx (ix1 k) ⟨List.idxOf (0 : Fin 1) (binDims P N wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- There is no window: the operand's one axis is inserted. -/
theorem binDims_window (j : (⟨1, ![N]⟩ : Shape).Idx) (a : Fin 1) : (binDims P N wf).window j a = 0 := by
  obtain rfl : a = 0 := Subsingleton.elim _ _
  unfold ScatterDims.window
  rw [dif_neg]
  intro h
  have := (List.mem_filter.1 h).2
  simp at this

/-- Update `k` lands on element `v` exactly when its scatter index, read as a signed integer, is `v`. -/
theorem binDims_resultIdx?_eq_some_iff (k : Fin N) (idx : IVec ⟨2, ![N, 1]⟩ w) (v : Fin P) :
    (binDims P N wf).resultIdx? (ix1 k) idx = some (ix1 v) ↔ (idx (ix2 k (0 : Fin 1))).toInt = (v.val : Int) := by
  unfold ScatterDims.resultIdx?
  split
  · rename_i h
    constructor
    · intro e
      have e' := congrArg Fin.val (congrFun (Option.some.inj e) (0 : Fin 1))
      have h0 := (h 0).1
      change ((binDims P N wf).start (ix1 k) idx 0 + ((binDims P N wf).window (ix1 k) 0 : Nat)).toNat = v.val at e'
      rw [binDims_start, binDims_window] at e' h0
      omega
    · intro e
      congr 1
      funext a
      obtain rfl : a = 0 := Subsingleton.elim _ _
      refine Fin.ext ?_
      show ((binDims P N wf).start (ix1 k) idx 0 + ((binDims P N wf).window (ix1 k) 0 : Nat)).toNat = v.val
      rw [binDims_start, binDims_window, e]
      omega
  · rename_i h
    constructor
    · intro e; cases e
    · intro e
      exfalso
      apply h
      intro a
      obtain rfl : a = 0 := Subsingleton.elim _ _
      rw [binDims_start, binDims_window, e]
      show (0 : Int) ≤ (v.val : Int) + ((0 : Nat) : Int) ∧ (v.val : Int) + ((0 : Nat) : Int) < ((P : Nat) : Int)
      have := v.isLt
      omega

/-- The indices of a vector of length `N` are the numbers below `N`. -/
def idxEquiv1 (N : Nat) : Fin N ≃ (⟨1, ![N]⟩ : Shape).Idx where
  toFun := ix1
  invFun j := j 0
  left_inv _ := rfl
  right_inv j := (eq_ix1 j).symm

/-- THE BINCOUNT SCATTER READ AT `v`: the operand's element plus the sum of the updates whose scatter index, read
    as a signed integer, is `v`. -/
theorem bincount_apply (P N : Nat) (wf : ScatterDims.WF ⟨1, ![P]⟩ ⟨2, ![N, 1]⟩ ⟨1, ![N]⟩ [] [0] [0] 1)
    (x : IVec ⟨1, ![P]⟩ 32) (idx : IVec ⟨2, ![N, 1]⟩ 32) (upd : IVec ⟨1, ![N]⟩ 32) (v : Fin P) :
    Host.scatter (binDims P N wf) IntOp.addi x idx upd (ix1 v)
      = x (ix1 v) + ∑ k ∈ Finset.univ.filter (fun k : Fin N => (idx (ix2 k (0 : Fin 1))).toInt = (v.val : Int)),
          upd (ix1 k) := by
  have hf : (IntOp.addi : BitVec 32 → BitVec 32 → BitVec 32) = fun a b => a + b := rfl
  rw [hf, scatter_add_apply, ← Equiv.sum_comp (idxEquiv1 N), Finset.sum_filter]
  congr 1
  refine Finset.sum_congr rfl fun k _ => ?_
  exact if_congr (binDims_resultIdx?_eq_some_iff wf k idx v) rfl rfl

/-- A bincount proper — an operand of zeros, updates all one —, read at `v`: the number of updates whose scatter
    index, read as a signed integer, is `v`. -/
theorem bincount_ones (P N : Nat) (wf : ScatterDims.WF ⟨1, ![P]⟩ ⟨2, ![N, 1]⟩ ⟨1, ![N]⟩ [] [0] [0] 1)
    (x : IVec ⟨1, ![P]⟩ 32) (idx : IVec ⟨2, ![N, 1]⟩ 32) (upd : IVec ⟨1, ![N]⟩ 32)
    (hx : ∀ v, x (ix1 v) = 0#32) (hu : ∀ k, upd (ix1 k) = 1#32) (v : Fin P) :
    Host.scatter (binDims P N wf) IntOp.addi x idx upd (ix1 v)
      = BitVec.ofNat 32
          (Finset.univ.filter (fun k : Fin N => (idx (ix2 k (0 : Fin 1))).toInt = (v.val : Int))).card := by
  rw [bincount_apply, hx, Finset.sum_congr rfl (fun k _ => hu k), Finset.sum_const]
  show (0 : BitVec 32) + _ • (1 : BitVec 32) = _
  rw [zero_add, nsmul_one, BitVec.natCast_eq_ofNat]

end Bin

/-- A printed record of these dimension numbers at `P = 2016`, `N = 4096` is `binDims 2016 4096` on the nose. -/
example (wf : ScatterDims.WF ⟨1, ![2016]⟩ ⟨2, ![4096, 1]⟩ ⟨1, ![4096]⟩ [] [0] [0] 1) :
    ({ updateWindowDims := [], insertedWindowDims := [0], scatterDimsToOperandDims := [0], indexVectorDim := 1,
       wf := wf } : ScatterDims ⟨1, ![2016]⟩ ⟨2, ![4096, 1]⟩ ⟨1, ![4096]⟩) = binDims 2016 4096 wf := rfl

end Cert.Lib.Bincount
-- ==== Proof.Triangle.lean ====
import Mathlib.Data.Fintype.Card
import Mathlib.Order.Interval.Finset.Fin
import Mathlib.Algebra.BigOperators.Group.Finset.Piecewise
import Mathlib.Algebra.BigOperators.Group.Finset.Sigma
import proofs.«134727_j32238024524281_2_alg».proof.KernelIdeal

namespace Cert.Gram.Triangle

open Finset

/-! ## Part 1: counting

Generic facts about running counts of a decidable predicate on `Fin N` and the
enumeration of its true positions by a strictly increasing map. -/

/-- Summing the sizes of the fibres `c = v` over all values `v ≤ p` counts the
positions whose value is at most `p`. -/
theorem sum_fibers {N P : Nat} (c : Fin N → Nat) (p : Fin P) :
    ∑ v ∈ Finset.univ.filter (fun v : Fin P => v ≤ p),
        (Finset.univ.filter (fun k : Fin N => c k = v.val)).card
      = (Finset.univ.filter (fun k : Fin N => c k ≤ p.val)).card := by
  simp only [Finset.card_filter]
  rw [Finset.sum_comm]
  refine Finset.sum_congr rfl fun k _ => ?_
  by_cases h : c k ≤ p.val
  · rw [if_pos h]
    have hlt : c k < P := lt_of_le_of_lt h p.2
    rw [Finset.sum_eq_single (⟨c k, hlt⟩ : Fin P)]
    · simp
    · intro v _ hv
      rw [if_neg]
      intro hc
      exact hv (Fin.ext hc.symm)
    · intro hn
      exfalso
      apply hn
      rw [Finset.mem_filter]
      exact ⟨Finset.mem_univ _, Fin.le_def.mpr h⟩
  · rw [if_neg h]
    refine Finset.sum_eq_zero fun v hv => ?_
    rw [if_neg]
    intro hc
    have : v ≤ p := (Finset.mem_filter.mp hv).2
    exact h (hc ▸ Fin.le_def.mp this)

/-- A strictly increasing enumeration of true positions that has as many entries
as there are true positions hits every true position. -/
theorem image_eq {N P : Nat} (M : Fin N → Prop) [DecidablePred M] (L : Fin P → Fin N)
    (hmono : StrictMono L) (hM : ∀ p, M (L p))
    (hcard : (Finset.univ.filter M).card = P) :
    Finset.univ.image L = Finset.univ.filter M := by
  refine Finset.eq_of_subset_of_card_le ?_ ?_
  · intro x hx
    obtain ⟨q, _, rfl⟩ := Finset.mem_image.mp hx
    exact Finset.mem_filter.mpr ⟨Finset.mem_univ _, hM q⟩
  · rw [hcard, Finset.card_image_of_injective _ hmono.injective]
    simp

/-- The running count of true positions up to `k` is the number of enumeration
entries at most `k`. -/
theorem running_count {N P : Nat} (M : Fin N → Prop) [DecidablePred M] (L : Fin P → Fin N)
    (hmono : StrictMono L) (hM : ∀ p, M (L p))
    (hcard : (Finset.univ.filter M).card = P) (k : Fin N) :
    (Finset.univ.filter (fun k' : Fin N => k' ≤ k ∧ M k')).card
      = (Finset.univ.filter (fun q : Fin P => L q ≤ k)).card := by
  have himg := image_eq M L hmono hM hcard
  have hset : Finset.univ.filter (fun k' : Fin N => k' ≤ k ∧ M k')
      = (Finset.univ.filter (fun q : Fin P => L q ≤ k)).image L := by
    ext x
    simp only [Finset.mem_filter, Finset.mem_univ, true_and, Finset.mem_image]
    constructor
    · rintro ⟨hxk, hMx⟩
      have hx : x ∈ Finset.univ.image L := by
        rw [himg]; exact Finset.mem_filter.mpr ⟨Finset.mem_univ _, hMx⟩
      obtain ⟨q, _, rfl⟩ := Finset.mem_image.mp hx
      exact ⟨q, hxk, rfl⟩
    · rintro ⟨q, hq, rfl⟩
      exact ⟨hq, hM q⟩
  rw [hset, Finset.card_image_of_injective _ hmono.injective]

/-- The running count never exceeds the number of true positions. -/
theorem running_count_le {N P : Nat} (M : Fin N → Prop) [DecidablePred M] (L : Fin P → Fin N)
    (hmono : StrictMono L) (hM : ∀ p, M (L p))
    (hcard : (Finset.univ.filter M).card = P) (k : Fin N) :
    (Finset.univ.filter (fun k' : Fin N => k' ≤ k ∧ M k')).card ≤ P := by
  rw [running_count M L hmono hM hcard k]
  calc (Finset.univ.filter (fun q : Fin P => L q ≤ k)).card
      ≤ (Finset.univ : Finset (Fin P)).card := Finset.card_filter_le _ _
    _ = P := by simp

/-- The number of positions whose running count is at most `p` is the position of
the `(p+1)`-th true position. -/
theorem rank_select {N P : Nat} (M : Fin N → Prop) [DecidablePred M] (L : Fin P → Fin N)
    (hmono : StrictMono L) (hM : ∀ p, M (L p))
    (hcard : (Finset.univ.filter M).card = P) (p : Fin P) :
    (Finset.univ.filter (fun k : Fin N =>
        (Finset.univ.filter (fun k' : Fin N => k' ≤ k ∧ M k')).card ≤ p.val)).card
      = (L p).val := by
  have hiff : ∀ k : Fin N,
      (Finset.univ.filter (fun k' : Fin N => k' ≤ k ∧ M k')).card ≤ p.val ↔ k < L p := by
    intro k
    rw [running_count M L hmono hM hcard k]
    constructor
    · intro hle
      by_contra hnot
      have hLp : L p ≤ k := not_lt.mp hnot
      have hsub : Finset.Iic p ⊆ Finset.univ.filter (fun q : Fin P => L q ≤ k) := by
        intro q hq
        have hqp : q ≤ p := Finset.mem_Iic.mp hq
        exact Finset.mem_filter.mpr ⟨Finset.mem_univ _, le_trans (hmono.monotone hqp) hLp⟩
      have h1 := Finset.card_le_card hsub
      rw [Fin.card_Iic] at h1
      omega
    · intro hlt
      have hsub : Finset.univ.filter (fun q : Fin P => L q ≤ k) ⊆ Finset.Iio p := by
        intro q hq
        have hqk : L q ≤ k := (Finset.mem_filter.mp hq).2
        exact Finset.mem_Iio.mpr (hmono.lt_iff_lt.mp (lt_of_le_of_lt hqk hlt))
      have h1 := Finset.card_le_card hsub
      rw [Fin.card_Iio] at h1
      exact h1
  have hset : Finset.univ.filter (fun k : Fin N =>
        (Finset.univ.filter (fun k' : Fin N => k' ≤ k ∧ M k')).card ≤ p.val)
      = Finset.Iio (L p) := by
    ext k
    simp only [Finset.mem_filter, Finset.mem_univ, true_and, Finset.mem_Iio]
    exact hiff k
  rw [hset, Fin.card_Iio]

/-! ## Part 2: the two literal tables

The program holds the row numbers `I p` and column numbers `J p` of the strict
upper triangle of a 64×64 square as two tables of 2016 words each, listed in
row-major order of the triangle. -/

/-- The row number held at position `p` of the first table. -/
def I (p : Fin 2016) : Nat := (Cert.KernelIdeal.lit0 p).toNat

/-- The column number held at position `p` of the second table. -/
def J (p : Fin 2016) : Nat := (Cert.KernelIdeal.lit1 p).toNat

/-- Every entry lies strictly above the diagonal, inside the square. -/
theorem tab_lt : ∀ p : Fin 2016, I p < J p ∧ J p < 64 := by decide +kernel

/-- The flattened positions `64 * I + J` increase strictly along the tables. -/
theorem tab_mono : ∀ p : Fin 2016, ∀ h : p.val + 1 < 2016,
    64 * I p + J p < 64 * I ⟨p.val + 1, h⟩ + J ⟨p.val + 1, h⟩ := by decide +kernel

/-- The strict upper triangle of a 64×64 square has 2016 cells. -/
theorem tri_card :
    (Finset.univ.filter (fun k : Fin 4096 => k.val / 64 < k.val % 64)).card = 2016 := by
  decide +kernel

/-- The flattened (row-major) position of the `p`-th cell of the triangle. -/
def L (p : Fin 2016) : Fin 4096 := ⟨64 * I p + J p, by have := tab_lt p; omega⟩

theorem L_val (p : Fin 2016) : (L p).val = 64 * I p + J p := rfl

theorem L_strictMono : StrictMono L := by
  refine (Fin.strictMono_iff_lt_succ (n := 2015) (f := L)).mpr fun i => ?_
  rw [Fin.lt_def, L_val, L_val]
  exact tab_mono (Fin.castSucc i) (by have := i.2; simp only [Fin.val_castSucc]; omega)

theorem L_div (p : Fin 2016) : (L p).val / 64 = I p := by
  have := tab_lt p
  rw [L_val]; omega

theorem L_mod (p : Fin 2016) : (L p).val % 64 = J p := by
  have := tab_lt p
  rw [L_val]; omega

theorem L_mem (p : Fin 2016) : (L p).val / 64 < (L p).val % 64 := by
  rw [L_div, L_mod]; exact (tab_lt p).1

theorem lit0_eq (p : Fin 2016) : Cert.KernelIdeal.lit0 p = BitVec.ofNat 32 (I p) := by
  simp [I]

theorem lit1_eq (p : Fin 2016) : Cert.KernelIdeal.lit1 p = BitVec.ofNat 32 (J p) := by
  simp [J]

/-- The number of flattened positions whose running count of triangle cells is at
most `p` is the flattened position of the `p`-th cell of the triangle. -/
theorem position (p : Fin 2016) :
    (Finset.univ.filter (fun k : Fin 4096 =>
        (Finset.univ.filter
          (fun k' : Fin 4096 => k' ≤ k ∧ k'.val / 64 < k'.val % 64)).card ≤ p.val)).card
      = 64 * I p + J p :=
  rank_select (fun k : Fin 4096 => k.val / 64 < k.val % 64) L L_strictMono L_mem tri_card p

end Cert.Gram.Triangle
-- ==== Proof.Positions.lean ====
/-
  The reference's computed index vectors are the kernel program's literal tables.
  With `c k` the number of mask flags at positions up to `k`: the running sum reads `c k` at `k`; the
  scatter of ones reads, at each value `v`, the number of positions with `c k = v`; the second running
  sum reads at `p` the number of positions with `c k ≤ p`, which is the position of flag number `p`,
  `64·i + j` for the table entries `(i, j)`; floor division and remainder by 64 give `i` and `j` back.
-/
import proofs.«134727_j32238024524281_2_alg».proof.Proof.Stages
import proofs.«134727_j32238024524281_2_alg».proof.Proof.Mask
import proofs.«134727_j32238024524281_2_alg».proof.Proof.DivMod
import proofs.«134727_j32238024524281_2_alg».proof.Proof.LibCumsum
import proofs.«134727_j32238024524281_2_alg».proof.Proof.LibBincount
import proofs.«134727_j32238024524281_2_alg».proof.Proof.Triangle
import Idealize.ShloMosaic.Lib.Pipeline.Value

noncomputable section

namespace Cert.ReferenceIdeal.Positions

open Idealize.ShloMosaic Idealize.ShloMosaic.ValueIdx Cert.ReferenceIdeal Cert.Gram.Triangle

/-- Flag `k` of the flattened mask is set. -/
abbrev M (k : Fin 4096) : Prop := k.val / 64 < k.val % 64

/-- The number of set flags at positions up to `k`. -/
def c (k : Fin 4096) : Nat := (Finset.univ.filter (fun k' : Fin 4096 => k' ≤ k ∧ M k')).card

theorem c_le (k : Fin 4096) : c k ≤ 4096 := by
  unfold c
  exact (Finset.card_filter_le _ _).trans (by simp)

theorem sum_flags (k : Fin 4096) :
    (∑ k' ∈ Finset.univ.filter (fun k' : Fin 4096 => k' ≤ k), (if k'.val / 64 < k'.val % 64 then 1 else 0)) = c k := by
  unfold c
  rw [Finset.sum_boole, Finset.filter_filter]
  rfl

/-- Small nonnegative words: the clip at zero and the wrap of negatives leave them alone, and read signed they are
    themselves. -/
theorem small_words : ∀ n : Fin 4097,
    IntOp.maxsi 0#32 (BitVec.ofNat 32 n.val) = BitVec.ofNat 32 n.val
    ∧ IntOp.cmpi .slt (BitVec.ofNat 32 n.val) 0#32 = 0#1
    ∧ (BitVec.ofNat 32 n.val).toInt = (n.val : Int) := by
  decide +kernel

variable [Facts]
open Facts₀ Facts

theorem csum_apply (k : Fin 4096) : Stages.csum (ix1 k) = BitVec.ofNat 32 (c k) := by
  unfold Stages.csum
  rw [Cert.Lib.Cumsum.cumsum_ofNat 4096 4095 rfl Stages.maskFlat Stages.zero0 reduceWindows_S4096_S4096_w4096s1p4095_0 h_S_ rfl
    (fun k => if k.val / 64 < k.val % 64 then 1 else 0) Mask.maskFlat_apply k, sum_flags]

theorem wrapped_apply (k : Fin 4096) : Stages.wrapped (ix1 k) = BitVec.ofNat 32 (c k) := by
  have h := small_words ⟨c k, by have := c_le k; omega⟩
  have hc : Stages.clipped (ix1 k) = BitVec.ofNat 32 (c k) := by
    show IntOp.maxsi 0#32 (Stages.csum (ix1 k)) = _
    rw [csum_apply]; exact h.1
  show Scalar.select (IntOp.cmpi .slt (Stages.clipped (ix1 k)) 0#32) (IntOp.addi (Stages.clipped (ix1 k)) 2016#32) (Stages.clipped (ix1 k)) = _
  rw [hc, h.2.1, select_zero]

theorem counts_apply (v : Fin 2016) :
    Stages.counts (ix1 v) = BitVec.ofNat 32 (Finset.univ.filter (fun k : Fin 4096 => c k = v.val)).card := by
  have hd : scatter_S2016_S4096x1_S4096_n_0_0_1
      = Cert.Lib.Bincount.binDims 2016 4096 scatter_S2016_S4096x1_S4096_n_0_0_1_wf := rfl
  have hidx : ∀ k : Fin 4096, (broadcastInDim S4096x1 ![0] bcast_S4096_S4096x1_0 Stages.wrapped) (ix2 k (0 : Fin 1))
      = BitVec.ofNat 32 (c k) := fun k => by
    rw [← wrapped_apply k]
    exact broadcastInDim_apply _ _ _ _ _ (fun a => by
      match a with
      | ⟨0, _⟩ => rfl)
  have hx : ∀ v : Fin 2016, (broadcastInDim S2016 ![] bcast_S_S2016 (Stages.k32 0#32)) (ix1 v) = 0#32 := fun _ => rfl
  have hu : ∀ k : Fin 4096, (broadcastInDim S4096 ![] bcast_S_S4096 (Stages.k32 1#32)) (ix1 k) = 1#32 := fun _ => rfl
  have key := Cert.Lib.Bincount.bincount_ones 2016 4096 scatter_S2016_S4096x1_S4096_n_0_0_1_wf
    (broadcastInDim S2016 ![] bcast_S_S2016 (Stages.k32 0#32))
    (broadcastInDim S4096x1 ![0] bcast_S4096_S4096x1_0 Stages.wrapped)
    (broadcastInDim S4096 ![] bcast_S_S4096 (Stages.k32 1#32)) hx hu v
  rw [← hd] at key
  refine key.trans (congrArg (BitVec.ofNat 32) (congrArg Finset.card (Finset.filter_congr fun k _ => ?_)))
  rw [hidx k, (small_words ⟨c k, by have := c_le k; omega⟩).2.2]
  exact Int.ofNat_inj

theorem flat_apply (p : Fin 2016) : Stages.flat (ix1 p) = BitVec.ofNat 32 (L p).val := by
  unfold Stages.flat
  rw [Cert.Lib.Cumsum.cumsum_ofNat 2016 2015 rfl Stages.counts Stages.zero0 reduceWindows_S2016_S2016_w2016s1p2015_0 h_S_ rfl
    (fun v => (Finset.univ.filter (fun k : Fin 4096 => c k = v.val)).card) counts_apply p, sum_fibers c p]
  exact congrArg (BitVec.ofNat 32) (position p)

theorem iu_apply (p : Fin 2016) : Stages.iu (ix1 p) = Cert.KernelIdeal.lit0 p := by
  rw [DivMod.iu_of_flat p (L p) (flat_apply p), L_div, lit0_eq]

theorem ju_apply (p : Fin 2016) : Stages.ju (ix1 p) = Cert.KernelIdeal.lit1 p := by
  rw [DivMod.ju_of_flat p (L p) (flat_apply p), L_mod, lit1_eq]

/-- The computed rows are the literal table of rows. -/
theorem iu_eq : Stages.iu = fun i => Cert.KernelIdeal.lit0 (S2016.rowMajor i) := by
  funext i
  obtain ⟨p, rfl⟩ : ∃ p : Fin 2016, i = ix1 p := ⟨i 0, eq_ix1 i⟩
  rw [iu_apply]
  exact congrArg Cert.KernelIdeal.lit0 (Fin.ext (by rw [Shape.rowMajor_val_one]))

/-- The computed columns are the literal table of columns. -/
theorem ju_eq : Stages.ju = fun i => Cert.KernelIdeal.lit1 (S2016.rowMajor i) := by
  funext i
  obtain ⟨p, rfl⟩ : ∃ p : Fin 2016, i = ix1 p := ⟨i 0, eq_ix1 i⟩
  rw [ju_apply]
  exact congrArg Cert.KernelIdeal.lit1 (Fin.ext (by rw [Shape.rowMajor_val_one]))

end Cert.ReferenceIdeal.Positions

end
-- ==== Proof.lean ====
/-
  Kernel and reference compute one function.  The kernel forms, for every batch row, the 64×64 matrix of inner
  products of its 64 embedding rows — four batch rows at a time as one 256×256 product whose four diagonal 64×64
  blocks are kept — and the host then gathers the 2016 entries strictly above the diagonal at literal row and
  column tables.  The reference forms the same inner products by one batched dot product and gathers at rows and
  columns it computes from a triangular mask.  At the ideal values both inner products are the same finite sums,
  and the computed rows and columns are the literal tables, so the two gathers read one array at one set of
  indices.  No float law beyond the definition of a dot product as a sum is used; the inputs' finiteness is not needed.
-/
import proofs.«134727_j32238024524281_2_alg».proof.Defs
import proofs.«134727_j32238024524281_2_alg».proof.Proof.Gen.Kernel
import proofs.«134727_j32238024524281_2_alg».proof.Proof.Gen.Kernel.Frame
import proofs.«134727_j32238024524281_2_alg».proof.Proof.Gen.KernelIdeal
import proofs.«134727_j32238024524281_2_alg».proof.Proof.Gen.KernelIdeal.Frame
import proofs.«134727_j32238024524281_2_alg».proof.Proof.Gen.ReferenceIdeal
import proofs.«134727_j32238024524281_2_alg».proof.Proof.Gen.Pre_finite_inputs
import proofs.«134727_j32238024524281_2_alg».proof.Proof.Payload
import proofs.«134727_j32238024524281_2_alg».proof.Proof.KernelValue
import proofs.«134727_j32238024524281_2_alg».proof.Proof.RefRun
import proofs.«134727_j32238024524281_2_alg».proof.Proof.GramRef
import proofs.«134727_j32238024524281_2_alg».proof.Proof.Positions
import Idealize.ShloMosaic.Adequacy
import Idealize.ShloMosaic.Init

noncomputable section

namespace Cert.Proof

open Idealize.ShloMosaic Idealize.SL.Sem

/-- The two programs' results are one function of the argument array: the same Gram array gathered at the same
    index pairs. -/
theorem result_eq (x : FVec Ideal Cert.ReferenceIdeal.S4096x64x256 .f32) :
    Cert.ReferenceIdeal.Stages.result x = Cert.KernelIdeal.KValue.result x := by
  unfold Cert.ReferenceIdeal.Stages.result Cert.KernelIdeal.KValue.result
  rw [Cert.ReferenceIdeal.GramRef.gramRef_eq, Cert.ReferenceIdeal.Positions.iu_eq, Cert.ReferenceIdeal.Positions.ju_eq]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

theorem algebraic : Cert.algebraic_KernelIdeal_ReferenceIdeal := by
  intro m ρ m' ρ' _ hagree
  refine ⟨_, Cert.KernelIdeal.KValue.run m Cert.Gram.Payload.pay_apply ρ, ?_⟩
  refine (θ_run Cert.ReferenceIdeal.defs _ _).mono (fun _ h c => ⟨(h c).1.trans ?_, (h c).2⟩)
    (Cert.ReferenceIdeal.RefRun.run m' ρ')
  rw [hagree c]
  exact result_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
